-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 62
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S1x128, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x64, .f32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S_, .f32⟩
  | 86 => ⟨S100000, .f32⟩
  | 87 => ⟨S100000, .f32⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x128_S100000x128_1_0_0_1_n_n_wf : DotDims.WF S100000x64 S64x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KHost0.lean ====
/-
  The arrays the first kernel launch finds.

  Before the first launch the program computes, from the edge array alone, the source and destination numbers with the self
  loops appended, the degree count and the normalisation dis = select (deg > 0) (rsqrt (max deg 1)) 0, laid out as a column.
  The node features and the weights are still as launched. The same operations, on the same edge array, are the reference's
  stages 6, 7 and 17, so the terms are named by those.
-/
import proofs.«170777_j82566451298883_2_alg».proof.Proof.Gen.KernelIdeal.Frame
import proofs.«170777_j82566451298883_2_alg».proof.Proof.RefRead
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg)

/-- The node features at the first launch are the launch memory's. -/
theorem V3_arg0 (c : Dev nD) : V3 m ρ c main_arg0 = m ((c : Thread nD τ).loc main_arg0) := by
  dsimp only [V3, W3, W2, W1, hostOps0, hostOps0_1, hostOps0_2]
  after_results

/-- The first weight matrix at the first launch is the launch memory's. -/
theorem V3_arg2 (c : Dev nD) : V3 m ρ c main_arg2 = m ((c : Thread nD τ).loc main_arg2) := by
  dsimp only [V3, W3, W2, W1, hostOps0, hostOps0_1, hostOps0_2]
  after_results

/-- The first bias vector before the first launch is the launch memory's. -/
theorem W3_arg3 (c : Dev nD) : W3 m ρ c (Proc.devRef .tc main_arg3) = m ((c : Thread nD τ).loc main_arg3) := by
  dsimp only [W3, W2, W1, hostOps0, hostOps0_1, hostOps0_2]
  after_results

/-- The second weight matrix before the first launch is the launch memory's. -/
theorem W3_arg4 (c : Dev nD) : W3 m ρ c (Proc.devRef .tc main_arg4) = m ((c : Thread nD τ).loc main_arg4) := by
  dsimp only [W3, W2, W1, hostOps0, hostOps0_1, hostOps0_2]
  after_results

/-- The second bias vector before the first launch is the launch memory's. -/
theorem W3_arg5 (c : Dev nD) : W3 m ρ c (Proc.devRef .tc main_arg5) = m ((c : Thread nD τ).loc main_arg5) := by
  dsimp only [W3, W2, W1, hostOps0, hostOps0_1, hostOps0_2]
  after_results

/-- The comparison bit of the degree count after the first stretch of operations. -/
theorem W1_v12 (c : Dev nD) : W1 m ρ c (Proc.devRef .tc main_v12)
    = Cert.ReferenceIdeal.Read.val_main_v13 (F := Ideal) (m ((c : Thread nD τ).loc main_arg1)) := by
  dsimp only [W1, hostOps0]
  after_results
  rfl

/-- The reciprocal square root of the clamped degree count after the first stretch of operations. -/
theorem W1_v15 (c : Dev nD) : W1 m ρ c (Proc.devRef .tc main_v15)
    = Cert.ReferenceIdeal.Read.val_main_v16 (F := Ideal) (m ((c : Thread nD τ).loc main_arg1)) := by
  dsimp only [W1, hostOps0]
  after_results
  rfl

/-- The zero the choice falls back to. -/
theorem W1_cst_3 (c : Dev nD) : W1 m ρ c (Proc.devRef .tc main_cst_3) = Cert.ReferenceIdeal.Read.val_main_cst_3 (F := Ideal) := by
  dsimp only [W1, hostOps0]
  after_results
  rfl

/-- The choice between the reciprocal square root and zero, over what the first stretch of operations left. -/
theorem W2_v16_ops (c : Dev nD) : W2 m ρ c (Proc.devRef .tc main_v16)
    = (select (W1 m ρ c (Proc.devRef .tc main_v12) : IVec S100000 1) (W1 m ρ c (Proc.devRef .tc main_v15) : FVec Ideal S100000 .f32)
        (broadcastInDim S100000 ![] bcast_S_S100000 (id (W1 m ρ c (Proc.devRef .tc main_cst_3) : FVec Ideal S_ .f32))) : FVec Ideal S100000 .f32) := by
  show StableHlo.after hostOps0_1 (W1 m ρ c) (Proc.devRef .tc main_v16) = _
  generalize hW : W1 m ρ c = Wx
  dsimp only [hostOps0_1]
  after_results_simp
  rfl

/-- The normalisation after the choice between the reciprocal square root and zero. -/
theorem W2_v16 (c : Dev nD) : W2 m ρ c (Proc.devRef .tc main_v16)
    = Cert.ReferenceIdeal.Read.val_main_v17 (F := Ideal) (m ((c : Thread nD τ).loc main_arg1)) := by
  refine (W2_v16_ops m ρ c).trans ?_
  rw [W1_v12, W1_v15, W1_cst_3]
  rfl

/-- The normalisation column at the first launch: the normalisation laid out as [100000, 1]. -/
theorem V3_v17 (c : Dev nD) : V3 m ρ c main_v17
    = shapeCast S100000x1 (Cert.ReferenceIdeal.Read.val_main_v17 (F := Ideal) (m ((c : Thread nD τ).loc main_arg1))) shapeCasts_S100000_S100000x1 := by
  show StableHlo.after hostOps0_2 (W2 m ρ c) (Proc.devRef .tc main_v17) = _
  generalize hW : W2 m ρ c = Wx
  dsimp only [hostOps0_2]
  after_results
  subst hW
  rw [W2_v16]
  rfl

/-- The source numbers (self loops appended) at the first launch. -/
theorem W3_v5 (c : Dev nD) : W3 m ρ c (Proc.devRef .tc main_v5)
    = Cert.ReferenceIdeal.Read.val_main_v6 (F := Ideal) (m ((c : Thread nD τ).loc main_arg1)) := by
  dsimp only [W3, W2, W1, hostOps0, hostOps0_1, hostOps0_2]
  after_results
  rfl

/-- The destination numbers (self loops appended) at the first launch. -/
theorem W3_v6 (c : Dev nD) : W3 m ρ c (Proc.devRef .tc main_v6)
    = Cert.ReferenceIdeal.Read.val_main_v7 (F := Ideal) (m ((c : Thread nD τ).loc main_arg1)) := by
  dsimp only [W3, W2, W1, hostOps0, hostOps0_1, hostOps0_2]
  after_results
  rfl

end Cert.KernelIdeal.Hand

end
-- ==== Proof.KHost1.lean ====
/-
  The arrays the second and third kernel launches find.

  Between two launches the program gathers rows of the previous launch's result at the (wrapped) source numbers and adds
  them into a zero array at the destination numbers; the wrapped source column and the destination column are the same
  operations of the edge array as the reference's stages 23 and 44, so they are named by those. A launch leaves every
  buffer it does not write as it found it, so the normalisation column, the bias vectors and the second weight matrix
  reach the later launches unchanged.
-/
import proofs.«170777_j82566451298883_2_alg».proof.Proof.KHost0

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg)

/-! ### After the first launch -/

/-- The first launch leaves the normalisation column as it found it. -/
theorem W4_v17 (c : Dev nD) : W4 m ρ c (Proc.devRef .tc main_v17) = V3 m ρ c main_v17 :=
  (W4_arr m ρ c 2).trans (((dat0 (V3 m ρ) c).arrAt_in 2 rfl _).trans (A_eq0 (V3 m ρ) c 2))

set_option maxHeartbeats 4000000 in
/-- The aggregate the second launch reads: rows of the first launch's result gathered at the sources, added into zeros at
    the destinations. -/
theorem V5_v28 (c : Dev nD) : V5 m ρ c main_v28
    = Host.scatterAdd scatter_S100000x128_S1700000x1_S1700000x128_1_0_0_1
        (broadcastInDim S100000x128 ![] bcast_S_S100000x128 (constant (F := Ideal) S_ .f32 0x00000000#32))
        (Cert.ReferenceIdeal.Read.val_main_v44 (F := Ideal) (m ((c : Thread nD τ).loc main_arg1)))
        (Host.gather gather_S100000x128_S1700000x1_S1700000x128_1_0_n_n_0_1_1128 (W4 m ρ c (Proc.devRef .tc main_v18))
          (Cert.ReferenceIdeal.Read.val_main_v23 (F := Ideal) (m ((c : Thread nD τ).loc main_arg1)))) := by
  dsimp only [V5, W5, hostOps1]
  after_results
  rw [W4_of_ne m ρ c main_v6 (by decide), W4_of_ne m ρ c main_v5 (by decide), W3_v5, W3_v6]
  rfl

/-- The normalisation column at the second launch. -/
theorem V5_v17 (c : Dev nD) : V5 m ρ c main_v17 = V3 m ρ c main_v17 := by
  dsimp only [V5, W5, hostOps1]
  after_results
  exact W4_v17 m ρ c

/-- The first bias vector as a row at the second launch. -/
theorem V5_v29 (c : Dev nD) : V5 m ρ c main_v29 = shapeCast S1x128 (m ((c : Thread nD τ).loc main_arg3)) shapeCasts_S128_S1x128 := by
  dsimp only [V5, W5, hostOps1]
  after_results
  rw [W4_of_ne m ρ c main_arg3 (by decide), W3_arg3]
  rfl

/-- The second weight matrix at the second launch. -/
theorem V5_arg4 (c : Dev nD) : V5 m ρ c main_arg4 = m ((c : Thread nD τ).loc main_arg4) := by
  dsimp only [V5, W5, hostOps1]
  after_results
  rw [W4_of_ne m ρ c main_arg4 (by decide), W3_arg4]

/-- The source and destination numbers, and the second bias vector, after the stretch. -/
theorem W5_v5 (c : Dev nD) : W5 m ρ c (Proc.devRef .tc main_v5)
    = Cert.ReferenceIdeal.Read.val_main_v6 (F := Ideal) (m ((c : Thread nD τ).loc main_arg1)) := by
  dsimp only [W5, hostOps1]
  after_results
  rw [W4_of_ne m ρ c main_v5 (by decide), W3_v5]

theorem W5_v6 (c : Dev nD) : W5 m ρ c (Proc.devRef .tc main_v6)
    = Cert.ReferenceIdeal.Read.val_main_v7 (F := Ideal) (m ((c : Thread nD τ).loc main_arg1)) := by
  dsimp only [W5, hostOps1]
  after_results
  rw [W4_of_ne m ρ c main_v6 (by decide), W3_v6]

theorem W5_arg5 (c : Dev nD) : W5 m ρ c (Proc.devRef .tc main_arg5) = m ((c : Thread nD τ).loc main_arg5) := by
  dsimp only [W5, hostOps1]
  after_results
  rw [W4_of_ne m ρ c main_arg5 (by decide), W3_arg5]

/-! ### After the second launch -/

/-- The second launch leaves the normalisation column as it found it. -/
theorem W6_v17 (c : Dev nD) : W6 m ρ c (Proc.devRef .tc main_v17) = V3 m ρ c main_v17 :=
  ((W6_arr m ρ c 1).trans (((dat1 (V5 m ρ) c).arrAt_in 1 rfl _).trans (A_eq1 (V5 m ρ) c 1))).trans (V5_v17 m ρ c)

set_option maxHeartbeats 4000000 in
/-- The aggregate the third launch reads. -/
theorem V7_v40 (c : Dev nD) : V7 m ρ c main_v40
    = Host.scatterAdd scatter_S100000x64_S1700000x1_S1700000x64_1_0_0_1
        (broadcastInDim S100000x64 ![] bcast_S_S100000x64 (constant (F := Ideal) S_ .f32 0x00000000#32))
        (Cert.ReferenceIdeal.Read.val_main_v44 (F := Ideal) (m ((c : Thread nD τ).loc main_arg1)))
        (Host.gather gather_S100000x64_S1700000x1_S1700000x64_1_0_n_n_0_1_164 (W6 m ρ c (Proc.devRef .tc main_v30))
          (Cert.ReferenceIdeal.Read.val_main_v23 (F := Ideal) (m ((c : Thread nD τ).loc main_arg1)))) := by
  dsimp only [V7, W7, hostOps2]
  after_results
  rw [W6_of_ne m ρ c main_v6 (by decide), W6_of_ne m ρ c main_v5 (by decide), W5_v5, W5_v6]
  rfl

/-- The normalisation column at the third launch. -/
theorem V7_v17 (c : Dev nD) : V7 m ρ c main_v17 = V3 m ρ c main_v17 := by
  dsimp only [V7, W7, hostOps2]
  after_results
  exact W6_v17 m ρ c

/-- The second bias vector as a row at the third launch. -/
theorem V7_v41 (c : Dev nD) : V7 m ρ c main_v41 = shapeCast S1x64 (m ((c : Thread nD τ).loc main_arg5)) shapeCasts_S64_S1x64 := by
  dsimp only [V7, W7, hostOps2]
  after_results
  rw [W6_of_ne m ρ c main_arg5 (by decide), W5_arg5]
  rfl

end Cert.KernelIdeal.Hand

end
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.LibKeepdims.lean ====
/-
  A column kept as a unit axis, read at an index.

  A reduction that keeps its axis leaves a column `[a, 1]`: the vector `[a]` re-laid with a trailing unit axis, which
  reads at `(i, u)` the vector at `i`; and that column spread over `b` lanes reads at `(i, j)` the column at
  `(i, 0)`. Both hold for any element type.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.KBody.lean ====
/-
  What each of the three kernel bodies stores, read at an entry on the extended reals.

  The first body stores the product of its row block with the weight matrix, every row scaled by that row's entry of the
  normalisation column:  (∑ l, x (p, l) · w (l, k)) · d (p, 0).
  The second scales its block by the column, adds the bias row, rectifies, multiplies by the weight matrix and scales
  again:  (∑ k, max (a (p, k) · d (p, 0) + b (0, k)) 0 · w (k, j)) · d (p, 0).
  The third scales its block by the column and adds the bias row:  a (p, j) · d (p, 0) + b (0, j).
  A change of float format is the identity at the exact values, and a product accumulated into the zero splat is the plain
  finite sum.
-/
import proofs.«170777_j82566451298883_2_alg».proof.Proof.Gen.KernelIdeal.Skeleton
import proofs.«170777_j82566451298883_2_alg».proof.Proof.LibMatmulPlain
import proofs.«170777_j82566451298883_2_alg».proof.Proof.LibKeepdims
import proofs.«170777_j82566451298883_2_alg».proof.Proof.LibBiasRows
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The first body's stored block at (p, k). -/
theorem pay0_apply (x0 : FVec Ideal S5000x64 .f32) (x1 : FVec Ideal S64x128 .f32) (x2 : FVec Ideal S5000x1 .f32)
    (p : Fin 5000) (k : Fin 128) :
    k0_pay1 (F := Ideal) x0 x1 x2 (ix2 p k)
      = (∑ l : Fin 64, x0 (ix2 p l) * x1 (ix2 l k)) * x2 (ix2 p (0 : Fin 1)) := by
  unfold k0_pay1
  show FloatOps.matmul (DotDims.plain 5000 64 128) none (truncf .bf16 x0 bitsLt_bf16_f32) (truncf .bf16 x1 bitsLt_bf16_f32)
      (constant S5000x128 .f32 0x00000000#32) (ix2 p k)
    * broadcastTo S5000x128 (shapeCast S5000x1 x2 shapeCasts_S5000x1_S5000x1) broadcasts_S5000x1_S5000x128 (ix2 p k) = _
  rw [Cert.LibMatmulPlain.matmul_zero_apply, shapeCast_self, Cert.LibKeepdims.broadcastTo_a1_ab_apply]
  rfl

/-- The rectified, biased, scaled block of the second body at (p, k). -/
theorem act1_apply (v0 : FVec Ideal S5000x128 .f32) (v2 : FVec Ideal S5000x1 .f32) (v6 : FVec Ideal S1x128 .f32)
    (p : Fin 5000) (k : Fin 128) :
    maximumf (addf (mulf (shapeCast S5000x128 v0 shapeCasts_S5000x128_S5000x128)
        (broadcastTo S5000x128 (shapeCast S5000x1 v2 shapeCasts_S5000x1_S5000x1) broadcasts_S5000x1_S5000x128))
        (broadcastTo S5000x128 (shapeCast S1x128 v6 shapeCasts_S1x128_S1x128) broadcasts_S1x128_S5000x128))
      (broadcast S5000x128 (Scalar.ofBits (F := Ideal) .f32 0x00000000#32)) (ix2 p k)
      = max (v0 (ix2 p k) * v2 (ix2 p (0 : Fin 1)) + v6 (ix2 (0 : Fin 1) k)) (Ideal.ofBits .f32 0x00000000#32) := by
  show max (shapeCast S5000x128 v0 shapeCasts_S5000x128_S5000x128 (ix2 p k)
      * broadcastTo S5000x128 (shapeCast S5000x1 v2 shapeCasts_S5000x1_S5000x1) broadcasts_S5000x1_S5000x128 (ix2 p k)
      + broadcastTo S5000x128 (shapeCast S1x128 v6 shapeCasts_S1x128_S1x128) broadcasts_S1x128_S5000x128 (ix2 p k)) _ = _
  rw [shapeCast_self, shapeCast_self, shapeCast_self, Cert.LibKeepdims.broadcastTo_a1_ab_apply, Cert.LibBiasRows.row_broadcast]
  rfl

/-- The second body's stored block at (p, j). -/
theorem pay1_apply (v0 : FVec Ideal S5000x128 .f32) (v2 : FVec Ideal S5000x1 .f32) (v6 : FVec Ideal S1x128 .f32)
    (v13 : FVec Ideal S128x64 .f32) (v16 : FVec Ideal S5000x1 .f32) (p : Fin 5000) (j : Fin 64) :
    k1_pay1 (F := Ideal) v0 v2 v6 v13 v16 (ix2 p j)
      = (∑ k : Fin 128, max (v0 (ix2 p k) * v2 (ix2 p (0 : Fin 1)) + v6 (ix2 (0 : Fin 1) k)) (Ideal.ofBits .f32 0x00000000#32)
          * v13 (ix2 k j)) * v16 (ix2 p (0 : Fin 1)) := by
  unfold k1_pay1
  show FloatOps.matmul (DotDims.plain 5000 128 64) none
      (truncf .bf16 (maximumf (addf (mulf (shapeCast S5000x128 v0 shapeCasts_S5000x128_S5000x128)
        (broadcastTo S5000x128 (shapeCast S5000x1 v2 shapeCasts_S5000x1_S5000x1) broadcasts_S5000x1_S5000x128))
        (broadcastTo S5000x128 (shapeCast S1x128 v6 shapeCasts_S1x128_S1x128) broadcasts_S1x128_S5000x128))
      (broadcast S5000x128 (Scalar.ofBits (F := Ideal) .f32 0x00000000#32))) bitsLt_bf16_f32)
      (truncf .bf16 v13 bitsLt_bf16_f32) (constant S5000x64 .f32 0x00000000#32) (ix2 p j)
    * broadcastTo S5000x64 (shapeCast S5000x1 v16 shapeCasts_S5000x1_S5000x1) broadcasts_S5000x1_S5000x64 (ix2 p j) = _
  rw [Cert.LibMatmulPlain.matmul_zero_apply, Cert.LibKeepdims.broadcastTo_a1_ab_apply]
  refine congrArg₂ (· * ·) (Finset.sum_congr rfl fun k _ => ?_) ?_
  · exact congrArg (· * v13 (ix2 k j)) (act1_apply v0 v2 v6 p k)
  · rw [shapeCast_self]

/-- The third body's stored block at (p, j). -/
theorem pay2_apply (v0 : FVec Ideal S5000x64 .f32) (v2 : FVec Ideal S5000x1 .f32) (v6 : FVec Ideal S1x64 .f32)
    (p : Fin 5000) (j : Fin 64) :
    k2_pay1 (F := Ideal) v0 v2 v6 (ix2 p j) = v0 (ix2 p j) * v2 (ix2 p (0 : Fin 1)) + v6 (ix2 (0 : Fin 1) j) := by
  unfold k2_pay1
  show shapeCast S5000x64 v0 shapeCasts_S5000x64_S5000x64 (ix2 p j)
      * broadcastTo S5000x64 (shapeCast S5000x1 v2 shapeCasts_S5000x1_S5000x1) broadcasts_S5000x1_S5000x64 (ix2 p j)
      + broadcastTo S5000x64 (shapeCast S1x64 v6 shapeCasts_S1x64_S1x64) broadcasts_S1x64_S5000x64 (ix2 p j) = _
  rw [shapeCast_self, shapeCast_self, shapeCast_self, Cert.LibKeepdims.broadcastTo_a1_ab_apply, Cert.LibBiasRows.row_broadcast]
  rfl

end Cert.KernelIdeal.Hand

end
-- ==== Proof.KFinal0.lean ====
/-
  The first kernel's result array as one function of the arrays its launch finds.

  The launch runs over 20 row blocks of 5000 rows. Block t of the node features and of the normalisation column sit at rows
  5000·t … 5000·t + 4999, the weight matrix is one block, and block t of the result is written back at every point, so
  the blocks cover the result array. Entry (r, k) of the result is therefore
      (∑ l, x (r, l) · w (l, k)) · d (r, 0)
  of the whole arrays x (features), w (weights), d (normalisation column) as the launch finds them.
-/
import proofs.«170777_j82566451298883_2_alg».proof.Proof.Gen.KernelIdeal.Frame
import proofs.«170777_j82566451298883_2_alg».proof.Proof.KBody
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The result array of the first kernel from the whole arrays: features times weights, rows scaled by the column. -/
def G0 (x : FVec Ideal S100000x64 .f32) (w : FVec Ideal S64x128 .f32) (d : FVec Ideal S100000x1 .f32) :
    FVec Ideal S100000x128 .f32 :=
  fun i => (∑ l : Fin 64, x (ix2 (i 0) l) * w (ix2 l (i 1))) * d (ix2 (i 0) (0 : Fin 1))

/-- `G0` at an entry. -/
theorem G0_apply (x : FVec Ideal S100000x64 .f32) (w : FVec Ideal S64x128 .f32) (d : FVec Ideal S100000x1 .f32)
    (r : Fin 100000) (k : Fin 128) :
    G0 x w d (ix2 r k) = (∑ l : Fin 64, x (ix2 r l) * w (ix2 l k)) * d (ix2 r (0 : Fin 1)) := rfl

/-- The block index maps over the grid: the row-blocked windows move with the point, the weight matrix stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of block t of the features is row 5000·t + p of the array. -/
theorem iblk0_0_apply (c : Dev nD) (t : Fin cfg0.N) (p : Fin 5000) (l : Fin 64) (h : t.val * 5000 + p.val < 100000) :
    (iblk0 V c 0 t : FVec Ideal S5000x64 .f32) (ix2 p l) = (V c main_arg0 : FVec Ideal S100000x64 .f32) (ix2 ⟨t.val * 5000 + p.val, h⟩ l) := by
  obtain ⟨e00, e01, -⟩ := idx_facts0 t
  unfold iblk0
  rw [View.read_apply]
  show (V c main_arg0 : FVec Ideal S100000x64 .f32) _ = _
  refine congrArg (V c main_arg0 : FVec Ideal S100000x64 .f32) (funext fun a => Fin.ext ?_)
  match a with
  | ⟨0, _⟩ => show win0_0.index t 0 * 5000 + 1 * p.val = t.val * 5000 + p.val; rw [e00]; omega
  | ⟨1, _⟩ => show win0_0.index t 1 * 64 + 1 * l.val = l.val; rw [e01]; omega

/-- The weight matrix's one block is the matrix. -/
theorem iblk0_1_apply (c : Dev nD) (t : Fin cfg0.N) (l : Fin 64) (k : Fin 128) :
    (iblk0 V c 1 t : FVec Ideal S64x128 .f32) (ix2 l k) = (V c main_arg2 : FVec Ideal S64x128 .f32) (ix2 l k) := by
  obtain ⟨-, -, e10, e11, -⟩ := idx_facts0 t
  unfold iblk0
  rw [View.read_apply]
  show (V c main_arg2 : FVec Ideal S64x128 .f32) _ = _
  refine congrArg (V c main_arg2 : FVec Ideal S64x128 .f32) (funext fun a => Fin.ext ?_)
  match a with
  | ⟨0, _⟩ => show win0_1.index t 0 * 64 + 1 * l.val = l.val; rw [e10]; omega
  | ⟨1, _⟩ => show win0_1.index t 1 * 128 + 1 * k.val = k.val; rw [e11]; omega

/-- Row p of block t of the normalisation column is row 5000·t + p of the column. -/
theorem iblk0_2_apply (c : Dev nD) (t : Fin cfg0.N) (p : Fin 5000) (h : t.val * 5000 + p.val < 100000) :
    (iblk0 V c 2 t : FVec Ideal S5000x1 .f32) (ix2 p (0 : Fin 1)) = (V c main_v17 : FVec Ideal S100000x1 .f32) (ix2 ⟨t.val * 5000 + p.val, h⟩ (0 : Fin 1)) := by
  obtain ⟨-, -, -, -, e20, e21, -⟩ := idx_facts0 t
  unfold iblk0
  rw [View.read_apply]
  show (V c main_v17 : FVec Ideal S100000x1 .f32) _ = _
  refine congrArg (V c main_v17 : FVec Ideal S100000x1 .f32) (funext fun a => Fin.ext ?_)
  match a with
  | ⟨0, _⟩ => show win0_2.index t 0 * 5000 + 1 * p.val = t.val * 5000 + p.val; rw [e20]; omega
  | ⟨1, _⟩ => show win0_2.index t 1 * 1 + 1 * (0 : Fin 1).val = (0 : Fin 1).val; rw [e21]; rfl

/-- Entry (p, k) of block t of the result sits at row 5000·t + p, column k of the result array. -/
theorem emb0_3 (t : Fin cfg0.N) (p : Fin 5000) (k : Fin 128) (h : t.val * 5000 + p.val < 100000) :
    ((cfg0.win 3).blk t).view.emb (ix2 p k) = (ix2 ⟨t.val * 5000 + p.val, h⟩ k : S100000x128.Idx) := by
  obtain ⟨-, -, -, -, -, -, e30, e31⟩ := idx_facts0 t
  refine funext fun a => Fin.ext ?_
  match a with
  | ⟨0, _⟩ => show win0_3.index t 0 * 5000 + 1 * p.val = t.val * 5000 + p.val; rw [e30]; omega
  | ⟨1, _⟩ => show win0_3.index t 1 * 128 + 1 * k.val = k.val; rw [e31]; omega

/-- What point t writes back is block t of `G0` of the arrays the launch finds. -/
theorem flushed0_eq (c : Dev nD) (t : Fin cfg0.N) :
    (dat0 V c).flushed 3 t = ((cfg0.win 3).blk t).view.read (Elt Ideal) (G0 (V c main_arg0) (V c main_arg2) (V c main_v17)) := by
  show (cfg0.win 3).cut (grid0.coords t) ((dat0 V c).after 3 t) = _
  rw [after0_3]
  unfold out0_3
  rw [View.canon_unit_zero hz0]
  simp only [View.ld_unit_zero (S := S5000x64) hz0, View.ld_unit_zero (S := S64x128) hz0, View.ld_unit_zero (S := S5000x1) hz0]
  funext y
  obtain ⟨p, k, rfl⟩ : ∃ (p : Fin 5000) (k : Fin 128), y = ix2 p k := ⟨y 0, y 1, eq_ix2 y⟩
  have hN : cfg0.N = 20 := N_0
  have ht : t.val < 20 := by have := t.isLt; omega
  have hrow : t.val * 5000 + p.val < 100000 := by have := p.isLt; omega
  rw [View.read_apply]
  show k0_pay1 (iblk0 V c 0 t) (iblk0 V c 1 t) (iblk0 V c 2 t) (ix2 p k) = G0 (V c main_arg0) (V c main_arg2) (V c main_v17) (((cfg0.win 3).blk t).view.emb (ix2 p k))
  rw [emb0_3 t p k hrow]
  refine ((pay0_apply (iblk0 V c 0 t) (iblk0 V c 1 t) (iblk0 V c 2 t) p k).trans ?_).trans
    (G0_apply (V c main_arg0) (V c main_arg2) (V c main_v17) ⟨t.val * 5000 + p.val, hrow⟩ k).symm
  refine congrArg₂ (· * ·) (Finset.sum_congr rfl fun l _ => congrArg₂ (· * ·) ?_ ?_) ?_
  · exact iblk0_0_apply V c t p l hrow
  · exact iblk0_1_apply V c t l k
  · exact iblk0_2_apply V c t p hrow

/-- An index of the result array is in point t's block iff its row is in the block's 5000 rows. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Every index of the result array is in the block of the point its row belongs to. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have hq : (i 0).val / 5000 < cfg0.N := by rw [hN]; omega
  obtain ⟨-, -, -, -, -, -, e30, e31⟩ := idx_facts0 ⟨(i 0).val / 5000, hq⟩
  refine ⟨⟨(i 0).val / 5000, hq⟩, flush0_3 _, ?_⟩
  rw [mem_blk0]
  intro a
  match a with
  | ⟨0, _⟩ =>
    show win0_3.index ⟨(i 0).val / 5000, hq⟩ 0 * 5000 ≤ (i 0).val ∧ (i 0).val < win0_3.index ⟨(i 0).val / 5000, hq⟩ 0 * 5000 + 5000
    rw [e30]; show (i 0).val / 5000 * 5000 ≤ (i 0).val ∧ (i 0).val < (i 0).val / 5000 * 5000 + 5000; omega
  | ⟨1, _⟩ =>
    show win0_3.index ⟨(i 0).val / 5000, hq⟩ 1 * 128 ≤ (i 1).val ∧ (i 1).val < win0_3.index ⟨(i 0).val / 5000, hq⟩ 1 * 128 + 128
    rw [e31]; omega

/-- The result array after the launch. -/
theorem final0 (c : Dev nD) : (dat0 V c).arrAt 3 cfg0.N = G0 (V c main_arg0) (V c main_arg2) (V c main_v17) :=
  (dat0 V c).arrAt_eq_of_cover 3 (G0 (V c main_arg0) (V c main_arg2) (V c main_v17)) (fun t _ => flushed0_eq V c t) cover0

end Cert.KernelIdeal.Hand

end
-- ==== Proof.KFinal1.lean ====
/-
  The second kernel's result array as one function of the arrays its launch finds.

  The launch runs over 20 row blocks of 5000 rows. Block t of the aggregated features and of the normalisation column sit
  at rows 5000·t … 5000·t + 4999, the bias row and the weight matrix are one block each, and block t of the result is
  written back at every point, so the blocks cover the result array. Entry (r, j) of the result is therefore
      (∑ k, max (a (r, k) · d (r, 0) + b (0, k)) 0 · w (k, j)) · d (r, 0)
  of the whole arrays a (aggregated features), d (normalisation column), b (bias row), w (weights) as the launch finds
  them.
-/
import proofs.«170777_j82566451298883_2_alg».proof.Proof.Gen.KernelIdeal.Frame
import proofs.«170777_j82566451298883_2_alg».proof.Proof.KBody
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The result array of the second kernel from the whole arrays: rows scaled by the column, the bias row added, rectified,
    times the weights, rows scaled by the column again. -/
def G1 (a : FVec Ideal S100000x128 .f32) (d : FVec Ideal S100000x1 .f32) (b : FVec Ideal S1x128 .f32)
    (w : FVec Ideal S128x64 .f32) : FVec Ideal S100000x64 .f32 :=
  fun i => (∑ k : Fin 128, max (a (ix2 (i 0) k) * d (ix2 (i 0) (0 : Fin 1)) + b (ix2 (0 : Fin 1) k)) (Ideal.ofBits .f32 0x00000000#32)
      * w (ix2 k (i 1))) * d (ix2 (i 0) (0 : Fin 1))

/-- `G1` at an entry. -/
theorem G1_apply (a : FVec Ideal S100000x128 .f32) (d : FVec Ideal S100000x1 .f32) (b : FVec Ideal S1x128 .f32)
    (w : FVec Ideal S128x64 .f32) (r : Fin 100000) (j : Fin 64) :
    G1 a d b w (ix2 r j) = (∑ k : Fin 128, max (a (ix2 r k) * d (ix2 r (0 : Fin 1)) + b (ix2 (0 : Fin 1) k)) (Ideal.ofBits .f32 0x00000000#32)
      * w (ix2 k j)) * d (ix2 r (0 : Fin 1)) := rfl

/-- The block index maps over the grid: the row-blocked windows move with the point, the bias row and the weights stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t of the aggregated features is row 5000·t + p of the array. -/
theorem iblk1_0_apply (c : Dev nD) (t : Fin cfg1.N) (p : Fin 5000) (k : Fin 128) (h : t.val * 5000 + p.val < 100000) :
    (iblk1 V c 0 t : FVec Ideal S5000x128 .f32) (ix2 p k) = (V c main_v28 : FVec Ideal S100000x128 .f32) (ix2 ⟨t.val * 5000 + p.val, h⟩ k) := by
  obtain ⟨e00, e01, -⟩ := idx_facts1 t
  unfold iblk1
  rw [View.read_apply]
  show (V c main_v28 : FVec Ideal S100000x128 .f32) _ = _
  refine congrArg (V c main_v28 : FVec Ideal S100000x128 .f32) (funext fun a => Fin.ext ?_)
  match a with
  | ⟨0, _⟩ => show win1_0.index t 0 * 5000 + 1 * p.val = t.val * 5000 + p.val; rw [e00]; omega
  | ⟨1, _⟩ => show win1_0.index t 1 * 128 + 1 * k.val = k.val; rw [e01]; omega

/-- Row p of block t of the normalisation column is row 5000·t + p of the column. -/
theorem iblk1_1_apply (c : Dev nD) (t : Fin cfg1.N) (p : Fin 5000) (h : t.val * 5000 + p.val < 100000) :
    (iblk1 V c 1 t : FVec Ideal S5000x1 .f32) (ix2 p (0 : Fin 1)) = (V c main_v17 : FVec Ideal S100000x1 .f32) (ix2 ⟨t.val * 5000 + p.val, h⟩ (0 : Fin 1)) := by
  obtain ⟨-, -, e10, e11, -⟩ := idx_facts1 t
  unfold iblk1
  rw [View.read_apply]
  show (V c main_v17 : FVec Ideal S100000x1 .f32) _ = _
  refine congrArg (V c main_v17 : FVec Ideal S100000x1 .f32) (funext fun a => Fin.ext ?_)
  match a with
  | ⟨0, _⟩ => show win1_1.index t 0 * 5000 + 1 * p.val = t.val * 5000 + p.val; rw [e10]; omega
  | ⟨1, _⟩ => show win1_1.index t 1 * 1 + 1 * (0 : Fin 1).val = (0 : Fin 1).val; rw [e11]; rfl

/-- The bias row's one block is the row. -/
theorem iblk1_2_apply (c : Dev nD) (t : Fin cfg1.N) (k : Fin 128) :
    (iblk1 V c 2 t : FVec Ideal S1x128 .f32) (ix2 (0 : Fin 1) k) = (V c main_v29 : FVec Ideal S1x128 .f32) (ix2 (0 : Fin 1) k) := by
  obtain ⟨-, -, -, -, e20, e21, -⟩ := idx_facts1 t
  unfold iblk1
  rw [View.read_apply]
  show (V c main_v29 : FVec Ideal S1x128 .f32) _ = _
  refine congrArg (V c main_v29 : FVec Ideal S1x128 .f32) (funext fun a => Fin.ext ?_)
  match a with
  | ⟨0, _⟩ => show win1_2.index t 0 * 1 + 1 * (0 : Fin 1).val = (0 : Fin 1).val; rw [e20]; rfl
  | ⟨1, _⟩ => show win1_2.index t 1 * 128 + 1 * k.val = k.val; rw [e21]; omega

/-- The weight matrix's one block is the matrix. -/
theorem iblk1_3_apply (c : Dev nD) (t : Fin cfg1.N) (k : Fin 128) (j : Fin 64) :
    (iblk1 V c 3 t : FVec Ideal S128x64 .f32) (ix2 k j) = (V c main_arg4 : FVec Ideal S128x64 .f32) (ix2 k j) := by
  obtain ⟨-, -, -, -, -, -, e30, e31, -⟩ := idx_facts1 t
  unfold iblk1
  rw [View.read_apply]
  show (V c main_arg4 : FVec Ideal S128x64 .f32) _ = _
  refine congrArg (V c main_arg4 : FVec Ideal S128x64 .f32) (funext fun a => Fin.ext ?_)
  match a with
  | ⟨0, _⟩ => show win1_3.index t 0 * 128 + 1 * k.val = k.val; rw [e30]; omega
  | ⟨1, _⟩ => show win1_3.index t 1 * 64 + 1 * j.val = j.val; rw [e31]; omega

/-- Entry (p, j) of block t of the result sits at row 5000·t + p, column j of the result array. -/
theorem emb1_4 (t : Fin cfg1.N) (p : Fin 5000) (j : Fin 64) (h : t.val * 5000 + p.val < 100000) :
    ((cfg1.win 4).blk t).view.emb (ix2 p j) = (ix2 ⟨t.val * 5000 + p.val, h⟩ j : S100000x64.Idx) := by
  obtain ⟨-, -, -, -, -, -, -, -, e40, e41⟩ := idx_facts1 t
  refine funext fun a => Fin.ext ?_
  match a with
  | ⟨0, _⟩ => show win1_4.index t 0 * 5000 + 1 * p.val = t.val * 5000 + p.val; rw [e40]; omega
  | ⟨1, _⟩ => show win1_4.index t 1 * 64 + 1 * j.val = j.val; rw [e41]; omega

/-- What point t writes back is block t of `G1` of the arrays the launch finds. -/
theorem flushed1_eq (c : Dev nD) (t : Fin cfg1.N) :
    (dat1 V c).flushed 4 t = ((cfg1.win 4).blk t).view.read (Elt Ideal)
      (G1 (V c main_v28) (V c main_v17) (V c main_v29) (V c main_arg4)) := by
  show (cfg1.win 4).cut (grid1.coords t) ((dat1 V c).after 4 t) = _
  rw [after1_4]
  unfold out1_4
  rw [View.canon_unit_zero hz1]
  simp only [View.ld_unit_zero (S := S5000x128) hz1, View.ld_unit_zero (S := S5000x1) hz1, View.ld_unit_zero (S := S1x128) hz1,
    View.ld_unit_zero (S := S128x64) hz1]
  funext y
  obtain ⟨p, j, rfl⟩ : ∃ (p : Fin 5000) (j : Fin 64), y = ix2 p j := ⟨y 0, y 1, eq_ix2 y⟩
  have hN : cfg1.N = 20 := N_1
  have ht : t.val < 20 := by have := t.isLt; omega
  have hrow : t.val * 5000 + p.val < 100000 := by have := p.isLt; omega
  rw [View.read_apply]
  show k1_pay1 (iblk1 V c 0 t) (iblk1 V c 1 t) (iblk1 V c 2 t) (iblk1 V c 3 t) (iblk1 V c 1 t) (ix2 p j)
    = G1 (V c main_v28) (V c main_v17) (V c main_v29) (V c main_arg4) (((cfg1.win 4).blk t).view.emb (ix2 p j))
  rw [emb1_4 t p j hrow]
  refine ((pay1_apply (iblk1 V c 0 t) (iblk1 V c 1 t) (iblk1 V c 2 t) (iblk1 V c 3 t) (iblk1 V c 1 t) p j).trans ?_).trans
    (G1_apply (V c main_v28) (V c main_v17) (V c main_v29) (V c main_arg4) ⟨t.val * 5000 + p.val, hrow⟩ j).symm
  refine congrArg₂ (· * ·) (Finset.sum_congr rfl fun k _ => congrArg₂ (· * ·)
    (congrArg₂ max (congrArg₂ (· + ·) (congrArg₂ (· * ·) ?_ ?_) ?_) rfl) ?_) ?_
  · exact iblk1_0_apply V c t p k hrow
  · exact iblk1_1_apply V c t p hrow
  · exact iblk1_2_apply V c t k
  · exact iblk1_3_apply V c t k j
  · exact iblk1_1_apply V c t p hrow

/-- An index of the result array is in point t's block iff its row is in the block's 5000 rows. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v30).slice (win1_4.rect t)).set ↔ _
  rw [View.set_slice_whole, Rect.mem_set_unit]
  exact Iff.rfl

/-- Every index of the result array is in the block of the point its row belongs to. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have hq : (i 0).val / 5000 < cfg1.N := by rw [hN]; omega
  obtain ⟨-, -, -, -, -, -, -, -, e40, e41⟩ := idx_facts1 ⟨(i 0).val / 5000, hq⟩
  refine ⟨⟨(i 0).val / 5000, hq⟩, flush1_4 _, ?_⟩
  rw [mem_blk1]
  intro a
  match a with
  | ⟨0, _⟩ =>
    show win1_4.index ⟨(i 0).val / 5000, hq⟩ 0 * 5000 ≤ (i 0).val ∧ (i 0).val < win1_4.index ⟨(i 0).val / 5000, hq⟩ 0 * 5000 + 5000
    rw [e40]; show (i 0).val / 5000 * 5000 ≤ (i 0).val ∧ (i 0).val < (i 0).val / 5000 * 5000 + 5000; omega
  | ⟨1, _⟩ =>
    show win1_4.index ⟨(i 0).val / 5000, hq⟩ 1 * 64 ≤ (i 1).val ∧ (i 1).val < win1_4.index ⟨(i 0).val / 5000, hq⟩ 1 * 64 + 64
    rw [e41]; omega

/-- The result array after the launch. -/
theorem final1 (c : Dev nD) :
    (dat1 V c).arrAt 4 cfg1.N = G1 (V c main_v28) (V c main_v17) (V c main_v29) (V c main_arg4) :=
  (dat1 V c).arrAt_eq_of_cover 4 (G1 (V c main_v28) (V c main_v17) (V c main_v29) (V c main_arg4))
    (fun t _ => flushed1_eq V c t) cover1

end Cert.KernelIdeal.Hand

end
-- ==== Proof.KFinal2.lean ====
/-
  The third kernel's result array as one function of the arrays its launch finds.

  The launch runs over 20 row blocks of 5000 rows. Block t of the aggregated features and of the normalisation column sit
  at rows 5000·t … 5000·t + 4999, the bias row is one block, and block t of the result is written back at every point,
  so the blocks cover the result array. Entry (r, j) of the result is therefore
      a (r, j) · d (r, 0) + b (0, j)
  of the whole arrays a (aggregated features), d (normalisation column), b (bias row) as the launch finds them.
-/
import proofs.«170777_j82566451298883_2_alg».proof.Proof.Gen.KernelIdeal.Frame
import proofs.«170777_j82566451298883_2_alg».proof.Proof.KBody
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The result array of the third kernel from the whole arrays: rows scaled by the column, the bias row added. -/
def G2 (a : FVec Ideal S100000x64 .f32) (d : FVec Ideal S100000x1 .f32) (b : FVec Ideal S1x64 .f32) :
    FVec Ideal S100000x64 .f32 :=
  fun i => a (ix2 (i 0) (i 1)) * d (ix2 (i 0) (0 : Fin 1)) + b (ix2 (0 : Fin 1) (i 1))

/-- `G2` at an entry. -/
theorem G2_apply (a : FVec Ideal S100000x64 .f32) (d : FVec Ideal S100000x1 .f32) (b : FVec Ideal S1x64 .f32)
    (r : Fin 100000) (j : Fin 64) :
    G2 a d b (ix2 r j) = a (ix2 r j) * d (ix2 r (0 : Fin 1)) + b (ix2 (0 : Fin 1) j) := rfl

/-- The block index maps over the grid: the row-blocked windows move with the point, the bias row stays. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of block t of the aggregated features is row 5000·t + p of the array. -/
theorem iblk2_0_apply (c : Dev nD) (t : Fin cfg2.N) (p : Fin 5000) (j : Fin 64) (h : t.val * 5000 + p.val < 100000) :
    (iblk2 V c 0 t : FVec Ideal S5000x64 .f32) (ix2 p j) = (V c main_v40 : FVec Ideal S100000x64 .f32) (ix2 ⟨t.val * 5000 + p.val, h⟩ j) := by
  obtain ⟨e00, e01, -⟩ := idx_facts2 t
  unfold iblk2
  rw [View.read_apply]
  show (V c main_v40 : FVec Ideal S100000x64 .f32) _ = _
  refine congrArg (V c main_v40 : FVec Ideal S100000x64 .f32) (funext fun a => Fin.ext ?_)
  match a with
  | ⟨0, _⟩ => show win2_0.index t 0 * 5000 + 1 * p.val = t.val * 5000 + p.val; rw [e00]; omega
  | ⟨1, _⟩ => show win2_0.index t 1 * 64 + 1 * j.val = j.val; rw [e01]; omega

/-- Row p of block t of the normalisation column is row 5000·t + p of the column. -/
theorem iblk2_1_apply (c : Dev nD) (t : Fin cfg2.N) (p : Fin 5000) (h : t.val * 5000 + p.val < 100000) :
    (iblk2 V c 1 t : FVec Ideal S5000x1 .f32) (ix2 p (0 : Fin 1)) = (V c main_v17 : FVec Ideal S100000x1 .f32) (ix2 ⟨t.val * 5000 + p.val, h⟩ (0 : Fin 1)) := by
  obtain ⟨-, -, e10, e11, -⟩ := idx_facts2 t
  unfold iblk2
  rw [View.read_apply]
  show (V c main_v17 : FVec Ideal S100000x1 .f32) _ = _
  refine congrArg (V c main_v17 : FVec Ideal S100000x1 .f32) (funext fun a => Fin.ext ?_)
  match a with
  | ⟨0, _⟩ => show win2_1.index t 0 * 5000 + 1 * p.val = t.val * 5000 + p.val; rw [e10]; omega
  | ⟨1, _⟩ => show win2_1.index t 1 * 1 + 1 * (0 : Fin 1).val = (0 : Fin 1).val; rw [e11]; rfl

/-- The bias row's one block is the row. -/
theorem iblk2_2_apply (c : Dev nD) (t : Fin cfg2.N) (j : Fin 64) :
    (iblk2 V c 2 t : FVec Ideal S1x64 .f32) (ix2 (0 : Fin 1) j) = (V c main_v41 : FVec Ideal S1x64 .f32) (ix2 (0 : Fin 1) j) := by
  obtain ⟨-, -, -, -, e20, e21, -⟩ := idx_facts2 t
  unfold iblk2
  rw [View.read_apply]
  show (V c main_v41 : FVec Ideal S1x64 .f32) _ = _
  refine congrArg (V c main_v41 : FVec Ideal S1x64 .f32) (funext fun a => Fin.ext ?_)
  match a with
  | ⟨0, _⟩ => show win2_2.index t 0 * 1 + 1 * (0 : Fin 1).val = (0 : Fin 1).val; rw [e20]; rfl
  | ⟨1, _⟩ => show win2_2.index t 1 * 64 + 1 * j.val = j.val; rw [e21]; omega

/-- Entry (p, j) of block t of the result sits at row 5000·t + p, column j of the result array. -/
theorem emb2_3 (t : Fin cfg2.N) (p : Fin 5000) (j : Fin 64) (h : t.val * 5000 + p.val < 100000) :
    ((cfg2.win 3).blk t).view.emb (ix2 p j) = (ix2 ⟨t.val * 5000 + p.val, h⟩ j : S100000x64.Idx) := by
  obtain ⟨-, -, -, -, -, -, e30, e31⟩ := idx_facts2 t
  refine funext fun a => Fin.ext ?_
  match a with
  | ⟨0, _⟩ => show win2_3.index t 0 * 5000 + 1 * p.val = t.val * 5000 + p.val; rw [e30]; omega
  | ⟨1, _⟩ => show win2_3.index t 1 * 64 + 1 * j.val = j.val; rw [e31]; omega

/-- What point t writes back is block t of `G2` of the arrays the launch finds. -/
theorem flushed2_eq (c : Dev nD) (t : Fin cfg2.N) :
    (dat2 V c).flushed 3 t = ((cfg2.win 3).blk t).view.read (Elt Ideal) (G2 (V c main_v40) (V c main_v17) (V c main_v41)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S5000x1) hz2, View.ld_unit_zero (S := S1x64) hz2]
  funext y
  obtain ⟨p, j, rfl⟩ : ∃ (p : Fin 5000) (j : Fin 64), y = ix2 p j := ⟨y 0, y 1, eq_ix2 y⟩
  have hN : cfg2.N = 20 := N_2
  have ht : t.val < 20 := by have := t.isLt; omega
  have hrow : t.val * 5000 + p.val < 100000 := by have := p.isLt; omega
  rw [View.read_apply]
  show k2_pay1 (iblk2 V c 0 t) (iblk2 V c 1 t) (iblk2 V c 2 t) (ix2 p j) = G2 (V c main_v40) (V c main_v17) (V c main_v41) (((cfg2.win 3).blk t).view.emb (ix2 p j))
  rw [emb2_3 t p j hrow]
  refine ((pay2_apply (iblk2 V c 0 t) (iblk2 V c 1 t) (iblk2 V c 2 t) p j).trans ?_).trans
    (G2_apply (V c main_v40) (V c main_v17) (V c main_v41) ⟨t.val * 5000 + p.val, hrow⟩ j).symm
  refine congrArg₂ (· + ·) (congrArg₂ (· * ·) ?_ ?_) ?_
  · exact iblk2_0_apply V c t p j hrow
  · exact iblk2_1_apply V c t p hrow
  · exact iblk2_2_apply V c t j

/-- An index of the result array is in point t's block iff its row is in the block's 5000 rows. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v42).slice (win2_3.rect t)).set ↔ _
  rw [View.set_slice_whole, Rect.mem_set_unit]
  exact Iff.rfl

/-- Every index of the result array is in the block of the point its row belongs to. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  have hq : (i 0).val / 5000 < cfg2.N := by rw [hN]; omega
  obtain ⟨-, -, -, -, -, -, e30, e31⟩ := idx_facts2 ⟨(i 0).val / 5000, hq⟩
  refine ⟨⟨(i 0).val / 5000, hq⟩, flush2_3 _, ?_⟩
  rw [mem_blk2]
  intro a
  match a with
  | ⟨0, _⟩ =>
    show win2_3.index ⟨(i 0).val / 5000, hq⟩ 0 * 5000 ≤ (i 0).val ∧ (i 0).val < win2_3.index ⟨(i 0).val / 5000, hq⟩ 0 * 5000 + 5000
    rw [e30]; show (i 0).val / 5000 * 5000 ≤ (i 0).val ∧ (i 0).val < (i 0).val / 5000 * 5000 + 5000; omega
  | ⟨1, _⟩ =>
    show win2_3.index ⟨(i 0).val / 5000, hq⟩ 1 * 64 ≤ (i 1).val ∧ (i 1).val < win2_3.index ⟨(i 0).val / 5000, hq⟩ 1 * 64 + 64
    rw [e31]; omega

/-- The result array after the launch. -/
theorem final2 (c : Dev nD) : (dat2 V c).arrAt 3 cfg2.N = G2 (V c main_v40) (V c main_v17) (V c main_v41) :=
  (dat2 V c).arrAt_eq_of_cover 3 (G2 (V c main_v40) (V c main_v17) (V c main_v41)) (fun t _ => flushed2_eq V c t) cover2

end Cert.KernelIdeal.Hand

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.Spec.lean ====
/-
  A two-layer graph convolution, written twice over the extended reals.

  The graph has 100000 nodes and 1700000 edges (the given ones followed by one self loop per node). Edge `e` reads the row
  `src e` (its source number, negative numbers counted from the end, then clamped into the table) and is added into the row
  whose number is its destination, read signed; an edge whose destination is no row is dropped. `dis` is the
  symmetric normalisation `deg^(-1/2)` (zero for an isolated node).

  One writing scales a layer's features by `dis` at the source BEFORE they are gathered and scales the aggregate by `dis` at
  the destination AFTER the sum (`kOut`); the other multiplies every message by `dis[src] · dis[dst]` (`rOut`). Both are
  stated here index by index; that they agree is the module SpecLaw.
-/
import Idealize.ShloMosaic.PureOps.Ideal
import Idealize.ShloMosaic.Lib.ValueIdx
import proofs.«170777_j82566451298883_2_alg».proof.Proof.LibRows

noncomputable section

namespace Cert.Gcn

open Idealize.ShloMosaic Idealize.ShloMosaic.ValueIdx Cert.Lib.Rows

/-- The table has a row. -/
theorem nodes_pos : 0 < 100000 := by decide

/-- The value of the zero word: what a sum starts from and what the rectifier compares with. -/
abbrev zw : EReal := Ideal.ofBits .f32 0x00000000#32

section
variable (sN dR dN : IVec ⟨2, ![1700000, 1]⟩ 32) (dis : (⟨1, ![100000]⟩ : Shape).Idx → EReal)
  (x0 : (⟨2, ![100000, 64]⟩ : Shape).Idx → EReal) (x2 : (⟨2, ![64, 128]⟩ : Shape).Idx → EReal)
  (x3 : (⟨1, ![128]⟩ : Shape).Idx → EReal) (x4 : (⟨2, ![128, 64]⟩ : Shape).Idx → EReal)
  (x5 : (⟨1, ![64]⟩ : Shape).Idx → EReal)

/-- The row edge `e` reads: its source number clamped into the table. -/
def src (e : Fin 1700000) : Fin 100000 := rowOf 100000 nodes_pos (sN (ix2 e (0 : Fin 1)))

/-- The row the normalisation of edge `e` reads on the destination side: its (wrapped) destination number, clamped. -/
def dstRow (e : Fin 1700000) : Fin 100000 := rowOf 100000 nodes_pos (dN (ix2 e (0 : Fin 1)))

/-- The first dense layer: `x0 · x2` at (r, k). -/
def lin1 (r : Fin 100000) (k : Fin 128) : EReal := ∑ l : Fin 64, x0 (ix2 r l) * x2 (ix2 l k)

/-! ### Scaling at the source before the gather, at the destination after the sum -/

def kH1 (r : Fin 100000) (k : Fin 128) : EReal := lin1 x0 x2 r k * dis (ix1 r)

def kAgg1 (r : Fin 100000) (k : Fin 128) : EReal := zw + ∑ e ∈ edgesInto dR r, kH1 dis x0 x2 (src sN e) k

def kAct1 (r : Fin 100000) (k : Fin 128) : EReal := max (kAgg1 sN dR dis x0 x2 r k * dis (ix1 r) + x3 (ix1 k)) zw

def kH2 (r : Fin 100000) (j : Fin 64) : EReal :=
  (∑ k : Fin 128, kAct1 sN dR dis x0 x2 x3 r k * x4 (ix2 k j)) * dis (ix1 r)

def kAgg2 (r : Fin 100000) (j : Fin 64) : EReal := zw + ∑ e ∈ edgesInto dR r, kH2 sN dR dis x0 x2 x3 x4 (src sN e) j

def kOut (r : Fin 100000) (j : Fin 64) : EReal := kAgg2 sN dR dis x0 x2 x3 x4 r j * dis (ix1 r) + x5 (ix1 j)

/-! ### Every message multiplied by `dis[src] · dis[dst]` -/

def nrm (e : Fin 1700000) : EReal := dis (ix1 (src sN e)) * dis (ix1 (dstRow dN e))

def rAgg1 (r : Fin 100000) (k : Fin 128) : EReal := zw + ∑ e ∈ edgesInto dR r, lin1 x0 x2 (src sN e) k * nrm sN dN dis e

def rAct1 (r : Fin 100000) (k : Fin 128) : EReal := max (rAgg1 sN dR dN dis x0 x2 r k + x3 (ix1 k)) zw

def rLin2 (r : Fin 100000) (j : Fin 64) : EReal := ∑ k : Fin 128, rAct1 sN dR dN dis x0 x2 x3 r k * x4 (ix2 k j)

def rAgg2 (r : Fin 100000) (j : Fin 64) : EReal :=
  zw + ∑ e ∈ edgesInto dR r, rLin2 sN dR dN dis x0 x2 x3 x4 (src sN e) j * nrm sN dN dis e

def rOut (r : Fin 100000) (j : Fin 64) : EReal := rAgg2 sN dR dN dis x0 x2 x3 x4 r j + x5 (ix1 j)

end

end Cert.Gcn

end
-- ==== Proof.KValue.lean ====
/-
  The kernel program's result, entry by entry.

  Reading the run backwards from the result buffer: the third launch scales the second aggregate by the normalisation and adds
  the bias; the second aggregate sums, over the edges sent to a row, the rows of the second launch's result at the edges'
  sources; the second launch rectifies the scaled first aggregate plus bias, multiplies by the second weight matrix and
  scales; the first aggregate sums rows of the first launch's result, which is the first dense layer scaled by the
  normalisation. That is the function `kOut` of the specification, of the edge array's source column, destination column
  and normalisation, and of the five float arguments.
-/
import proofs.«170777_j82566451298883_2_alg».proof.Proof.KHost1
import proofs.«170777_j82566451298883_2_alg».proof.Proof.KFinal0
import proofs.«170777_j82566451298883_2_alg».proof.Proof.KFinal1
import proofs.«170777_j82566451298883_2_alg».proof.Proof.KFinal2
import proofs.«170777_j82566451298883_2_alg».proof.Proof.Spec
import proofs.«170777_j82566451298883_2_alg».proof.Proof.LibRows
import proofs.«170777_j82566451298883_2_alg».proof.Proof.LibKeepdims
import proofs.«170777_j82566451298883_2_alg».proof.Proof.LibBiasRows

noncomputable section

open Idealize.ShloMosaic Idealize.ShloMosaic.TcCoe Idealize.SL.Sem Idealize.ShloMosaic.ValueIdx

namespace Cert.KernelIdeal.Hand

open Cert.KernelIdeal Cert.KernelIdeal.Gen Cert.Gcn Cert.Lib.Rows

variable (m : (ℓ : Loc nD τ sig) → Buf (Elt Ideal) ℓ) (ρ : Dev nD → PrngReg)

/-- The wrapped source column of the edge array. -/
abbrev sNof (x1 : IVec S2x1600000 32) : IVec ⟨2, ![1700000, 1]⟩ 32 := Cert.ReferenceIdeal.Read.val_main_v23 (F := Ideal) x1
/-- The destination column of the edge array. -/
abbrev dRof (x1 : IVec S2x1600000 32) : IVec ⟨2, ![1700000, 1]⟩ 32 := Cert.ReferenceIdeal.Read.val_main_v44 (F := Ideal) x1
/-- The normalisation computed from the edge array. -/
abbrev disOf (x1 : IVec S2x1600000 32) : (⟨1, ![100000]⟩ : Shape).Idx → EReal := Cert.ReferenceIdeal.Read.val_main_v17 (F := Ideal) x1

/-- A gather of rows of a [100000, 128] table at the column of row numbers, read at (e, k). -/
theorem gather128_apply (x : S100000x128.Idx → EReal) (idx : IVec S1700000x1 32) (e : Fin 1700000) (k : Fin 128) :
    Host.gather gather_S100000x128_S1700000x1_S1700000x128_1_0_n_n_0_1_1128 x idx (ix2 e k)
      = x (ix2 (rowOf 100000 nodes_pos (idx (ix2 e (0 : Fin 1)))) k) :=
  gatherRows_apply nodes_pos Facts₀.gather_S100000x128_S1700000x1_S1700000x128_1_0_n_n_0_1_1128_wf x idx e k

/-- A gather of rows of a [100000, 64] table at the column of row numbers, read at (e, j). -/
theorem gather64_apply (x : S100000x64.Idx → EReal) (idx : IVec S1700000x1 32) (e : Fin 1700000) (j : Fin 64) :
    Host.gather gather_S100000x64_S1700000x1_S1700000x64_1_0_n_n_0_1_164 x idx (ix2 e j)
      = x (ix2 (rowOf 100000 nodes_pos (idx (ix2 e (0 : Fin 1)))) j) :=
  gatherRows_apply nodes_pos Facts₀.gather_S100000x64_S1700000x1_S1700000x64_1_0_n_n_0_1_164_wf x idx e j

/-- A sum of [1700000, 128] messages into a table at the column of row numbers, read at (r, k). -/
theorem scatter128_apply (x : S100000x128.Idx → EReal) (idx : IVec S1700000x1 32) (upd : S1700000x128.Idx → EReal)
    (r : Fin 100000) (k : Fin 128) :
    Host.scatterAdd (F := Ideal) (φ := .f32) scatter_S100000x128_S1700000x1_S1700000x128_1_0_0_1 x idx upd (ix2 r k)
      = x (ix2 r k) + ∑ e ∈ edgesInto idx r, upd (ix2 e k) :=
  scatterAddRows_apply (wf := Facts₀.scatter_S100000x128_S1700000x1_S1700000x128_1_0_0_1_wf) (idx := idx) (k := k) x upd r

/-- A sum of [1700000, 64] messages into a table at the column of row numbers, read at (r, j). -/
theorem scatter64_apply (x : S100000x64.Idx → EReal) (idx : IVec S1700000x1 32) (upd : S1700000x64.Idx → EReal)
    (r : Fin 100000) (j : Fin 64) :
    Host.scatterAdd (F := Ideal) (φ := .f32) scatter_S100000x64_S1700000x1_S1700000x64_1_0_0_1 x idx upd (ix2 r j)
      = x (ix2 r j) + ∑ e ∈ edgesInto idx r, upd (ix2 e j) :=
  scatterAddRows_apply (wf := Facts₀.scatter_S100000x64_S1700000x1_S1700000x64_1_0_0_1_wf) (idx := idx) (k := j) x upd r

/-- The zero array a sum of width 128 starts from, at an entry. -/
theorem zeros128_apply (r : Fin 100000) (k : Fin 128) :
    broadcastInDim S100000x128 ![] bcast_S_S100000x128 (constant (F := Ideal) S_ .f32 0x00000000#32) (ix2 r k) = zw := by
  generalize hy : constant (F := Ideal) S_ .f32 0x00000000#32 = y
  refine (broadcastInDim_apply _ bcast_S_S100000x128 y (ix2 r k) (fun a => a.elim0) (fun a => a.elim0)).trans ?_
  subst hy
  rfl

/-- The zero array a sum of width 64 starts from, at an entry. -/
theorem zeros64_apply (r : Fin 100000) (j : Fin 64) :
    broadcastInDim S100000x64 ![] bcast_S_S100000x64 (constant (F := Ideal) S_ .f32 0x00000000#32) (ix2 r j) = zw := by
  generalize hy : constant (F := Ideal) S_ .f32 0x00000000#32 = y
  refine (broadcastInDim_apply _ bcast_S_S100000x64 y (ix2 r j) (fun a => a.elim0) (fun a => a.elim0)).trans ?_
  subst hy
  rfl

/-- The second launch's result in terms of the first aggregate. -/
theorem kH2_unfold (sN dR : IVec ⟨2, ![1700000, 1]⟩ 32) (dis : (⟨1, ![100000]⟩ : Shape).Idx → EReal)
    (x0 : (⟨2, ![100000, 64]⟩ : Shape).Idx → EReal) (x2 : (⟨2, ![64, 128]⟩ : Shape).Idx → EReal)
    (x3 : (⟨1, ![128]⟩ : Shape).Idx → EReal) (x4 : (⟨2, ![128, 64]⟩ : Shape).Idx → EReal) (r : Fin 100000) (j : Fin 64) :
    kH2 sN dR dis x0 x2 x3 x4 r j
      = (∑ k : Fin 128, max (kAgg1 sN dR dis x0 x2 r k * dis (ix1 r) + x3 (ix1 k)) zw * x4 (ix2 k j)) * dis (ix1 r) := rfl

/-- The result in terms of the second aggregate. -/
theorem kOut_unfold (sN dR : IVec ⟨2, ![1700000, 1]⟩ 32) (dis : (⟨1, ![100000]⟩ : Shape).Idx → EReal)
    (x0 : (⟨2, ![100000, 64]⟩ : Shape).Idx → EReal) (x2 : (⟨2, ![64, 128]⟩ : Shape).Idx → EReal)
    (x3 : (⟨1, ![128]⟩ : Shape).Idx → EReal) (x4 : (⟨2, ![128, 64]⟩ : Shape).Idx → EReal)
    (x5 : (⟨1, ![64]⟩ : Shape).Idx → EReal) (r : Fin 100000) (j : Fin 64) :
    kOut sN dR dis x0 x2 x3 x4 x5 r j = kAgg2 sN dR dis x0 x2 x3 x4 r j * dis (ix1 r) + x5 (ix1 j) := rfl

/-- The first launch's result: the first dense layer, rows scaled by the normalisation. -/
theorem W4_v18 (c : Dev nD) : (W4 m ρ c (Proc.devRef .tc main_v18) : FVec Ideal S100000x128 .f32)
    = fun i => kH1 (disOf (m ((c : Thread nD τ).loc main_arg1))) (m ((c : Thread nD τ).loc main_arg0)) (m ((c : Thread nD τ).loc main_arg2)) (i 0) (i 1) := by
  refine (W4_arr m ρ c 3).trans ((final0 (V3 m ρ) c).trans ?_)
  rw [V3_arg0, V3_arg2, V3_v17]
  funext i
  obtain ⟨r, k, rfl⟩ : ∃ (r : Fin 100000) (k : Fin 128), i = ix2 r k := ⟨i 0, i 1, eq_ix2 i⟩
  rw [G0_apply, Cert.LibKeepdims.shapeCast_a_a1_apply]
  rfl

/-- The first aggregate. -/
theorem V5_v28_eq (c : Dev nD) : (V5 m ρ c main_v28 : FVec Ideal S100000x128 .f32)
    = fun i => kAgg1 (sNof (m ((c : Thread nD τ).loc main_arg1))) (dRof (m ((c : Thread nD τ).loc main_arg1))) (disOf (m ((c : Thread nD τ).loc main_arg1)))
        (m ((c : Thread nD τ).loc main_arg0)) (m ((c : Thread nD τ).loc main_arg2)) (i 0) (i 1) := by
  rw [V5_v28, W4_v18]
  funext i
  obtain ⟨r, k, rfl⟩ : ∃ (r : Fin 100000) (k : Fin 128), i = ix2 r k := ⟨i 0, i 1, eq_ix2 i⟩
  refine (scatter128_apply _ _ _ r k).trans ?_
  refine congrArg₂ (· + ·) (zeros128_apply r k) (Finset.sum_congr rfl fun e _ => ?_)
  exact gather128_apply _ _ e k

/-- The second launch's result: the second dense layer of the rectified first layer, rows scaled by the normalisation. -/
theorem W6_v30 (c : Dev nD) : (W6 m ρ c (Proc.devRef .tc main_v30) : FVec Ideal S100000x64 .f32)
    = fun i => kH2 (sNof (m ((c : Thread nD τ).loc main_arg1))) (dRof (m ((c : Thread nD τ).loc main_arg1))) (disOf (m ((c : Thread nD τ).loc main_arg1)))
        (m ((c : Thread nD τ).loc main_arg0)) (m ((c : Thread nD τ).loc main_arg2)) (m ((c : Thread nD τ).loc main_arg3)) (m ((c : Thread nD τ).loc main_arg4)) (i 0) (i 1) := by
  refine (W6_arr m ρ c 4).trans ((final1 (V5 m ρ) c).trans ?_)
  rw [V5_v28_eq, V5_v17, V5_v29, V5_arg4, V3_v17]
  funext i
  obtain ⟨r, j, rfl⟩ : ∃ (r : Fin 100000) (j : Fin 64), i = ix2 r j := ⟨i 0, i 1, eq_ix2 i⟩
  rw [G1_apply, Cert.LibKeepdims.shapeCast_a_a1_apply]
  refine Eq.trans ?_ (kH2_unfold _ _ _ _ _ _ _ r j).symm
  refine congrArg₂ (· * ·) (Finset.sum_congr rfl fun k _ => ?_) rfl
  exact congrArg₂ (· * ·) (congrArg₂ max (congrArg₂ (· + ·) rfl (Cert.LibBiasRows.row_of_vector _ shapeCasts_S128_S1x128 k)) rfl) rfl

/-- The second aggregate. -/
theorem V7_v40_eq (c : Dev nD) : (V7 m ρ c main_v40 : FVec Ideal S100000x64 .f32)
    = fun i => kAgg2 (sNof (m ((c : Thread nD τ).loc main_arg1))) (dRof (m ((c : Thread nD τ).loc main_arg1))) (disOf (m ((c : Thread nD τ).loc main_arg1)))
        (m ((c : Thread nD τ).loc main_arg0)) (m ((c : Thread nD τ).loc main_arg2)) (m ((c : Thread nD τ).loc main_arg3)) (m ((c : Thread nD τ).loc main_arg4)) (i 0) (i 1) := by
  rw [V7_v40, W6_v30]
  funext i
  obtain ⟨r, j, rfl⟩ : ∃ (r : Fin 100000) (j : Fin 64), i = ix2 r j := ⟨i 0, i 1, eq_ix2 i⟩
  refine (scatter64_apply _ _ _ r j).trans ?_
  refine congrArg₂ (· + ·) (zeros64_apply r j) (Finset.sum_congr rfl fun e _ => ?_)
  exact gather64_apply _ _ e j

/-- THE RESULT: the last boundary's contents at the result buffer is `kOut`. -/
theorem W8_v42 (c : Dev nD) : (W8 m ρ c (Proc.devRef .tc main_v42) : FVec Ideal S100000x64 .f32)
    = fun i => kOut (sNof (m ((c : Thread nD τ).loc main_arg1))) (dRof (m ((c : Thread nD τ).loc main_arg1))) (disOf (m ((c : Thread nD τ).loc main_arg1)))
        (m ((c : Thread nD τ).loc main_arg0)) (m ((c : Thread nD τ).loc main_arg2)) (m ((c : Thread nD τ).loc main_arg3)) (m ((c : Thread nD τ).loc main_arg4))
        (m ((c : Thread nD τ).loc main_arg5)) (i 0) (i 1) := by
  refine (W8_arr m ρ c 3).trans ((final2 (V7 m ρ) c).trans ?_)
  rw [V7_v40_eq, V7_v17, V7_v41, V3_v17]
  funext i
  obtain ⟨r, j, rfl⟩ : ∃ (r : Fin 100000) (j : Fin 64), i = ix2 r j := ⟨i 0, i 1, eq_ix2 i⟩
  rw [G2_apply, Cert.LibKeepdims.shapeCast_a_a1_apply]
  refine Eq.trans ?_ (kOut_unfold _ _ _ _ _ _ _ _ r j).symm
  exact congrArg₂ (· + ·) rfl (Cert.LibBiasRows.row_of_vector _ shapeCasts_S64_S1x64 j)

end Cert.KernelIdeal.Hand

end
-- ==== Proof.KRun.lean ====
/-
  The run of the program with its result named.

  The program is eight segments: three stretches of host operations, a launch of the first kernel over its 20 row blocks,
  a stretch (gather, scatter-add), the second kernel, a stretch, the third kernel. The buffer contents at each
  boundary are a fold from the launch memory (`W0` … `W8`), and every weakly fair execution ends with every unscoped
  buffer at the last boundary's contents `W8`. Read at the result buffer this names the result; read at the six argument
  buffers it gives them back as launched.
-/
import proofs.«170777_j82566451298883_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the argument buffers end as launched. -/
theorem run_result : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.RefValue.lean ====
/-
  The reference program's result, read at an index.

  The reference computes, twice over, the normalisation of every edge (the product of `dis` gathered at the edge's source
  and at its wrapped destination), multiplies the gathered rows of a dense layer by it, adds the messages into the rows
  named by the raw destination column, and adds a bias row; between the two layers it rectifies and applies the second
  dense layer. Stage by stage, each read at explicit coordinates, this is the writing `rOut` of the specification, over the
  four columns of the edge array that the reference itself computes: the wrapped source column, the raw destination
  column, the wrapped destination column, and `dis`. The second layer recomputes the same columns; those stages are
  equal to the first layer's by unfolding.
-/
import Idealize.ShloMosaic.PureOps.Ideal.Laws
import Idealize.ShloMosaic.Lib.ValueIdx
import Idealize.ShloMosaic.Lib.Pipeline.Value
import proofs.«170777_j82566451298883_2_alg».proof.Proof.Spec
import proofs.«170777_j82566451298883_2_alg».proof.Proof.LibRows
import proofs.«170777_j82566451298883_2_alg».proof.Proof.RefRead

noncomputable section

namespace Cert.Gcn.Ref

open Cert.ReferenceIdeal Cert.ReferenceIdeal.Gen Cert.ReferenceIdeal.Read Idealize.ShloMosaic Idealize.ShloMosaic.ValueIdx Cert.Lib.Rows

/-! ### Stages the second layer computes again -/

theorem v38_eq (x1 : (⟨S2x1600000, .i32⟩ : BufTy).Contents (Elt Ideal)) :
    val_main_v38 (F := Ideal) x1 = val_main_v23 (F := Ideal) x1 := rfl

theorem v63_eq (x1 : (⟨S2x1600000, .i32⟩ : BufTy).Contents (Elt Ideal)) :
    val_main_v63 (F := Ideal) x1 = val_main_v17 (F := Ideal) x1 := rfl

theorem v69_eq (x1 : (⟨S2x1600000, .i32⟩ : BufTy).Contents (Elt Ideal)) :
    val_main_v69 (F := Ideal) x1 = val_main_v23 (F := Ideal) x1 := rfl

theorem v84_eq (x1 : (⟨S2x1600000, .i32⟩ : BufTy).Contents (Elt Ideal)) :
    val_main_v84 (F := Ideal) x1 = val_main_v23 (F := Ideal) x1 := rfl

theorem v76_eq (x1 : (⟨S2x1600000, .i32⟩ : BufTy).Contents (Elt Ideal)) :
    val_main_v76 (F := Ideal) x1 = val_main_v30 (F := Ideal) x1 := rfl

theorem v90_eq (x1 : (⟨S2x1600000, .i32⟩ : BufTy).Contents (Elt Ideal)) :
    val_main_v90 (F := Ideal) x1 = val_main_v44 (F := Ideal) x1 := rfl

/-! ### The gathers and the accumulating scatters of this program, read at an index -/

/-- A gather from the flat table of 100000 entries: the entry at the clamped row of the edge's number. -/
theorem gatherFlat_at (t : S100000.Idx → EReal) (idx : IVec S1700000x1 32) (e : Fin 1700000) :
    Host.gather gather_S100000_S1700000x1_S1700000_n_0_n_n_0_1_1 t idx (ix1 e)
      = t (ix1 (rowOf 100000 Cert.Gcn.nodes_pos (idx (ix2 e (0 : Fin 1))))) :=
  gatherElts_apply Cert.Gcn.nodes_pos Facts₀.gather_S100000_S1700000x1_S1700000_n_0_n_n_0_1_1_wf t idx e

/-- A gather of rows of width 128. -/
theorem gatherRows128_at (t : S100000x128.Idx → EReal) (idx : IVec S1700000x1 32) (e : Fin 1700000) (k : Fin 128) :
    Host.gather gather_S100000x128_S1700000x1_S1700000x128_1_0_n_n_0_1_1128 t idx (ix2 e k)
      = t (ix2 (rowOf 100000 Cert.Gcn.nodes_pos (idx (ix2 e (0 : Fin 1)))) k) :=
  gatherRows_apply Cert.Gcn.nodes_pos Facts₀.gather_S100000x128_S1700000x1_S1700000x128_1_0_n_n_0_1_1128_wf t idx e k

/-- A gather of rows of width 64. -/
theorem gatherRows64_at (t : S100000x64.Idx → EReal) (idx : IVec S1700000x1 32) (e : Fin 1700000) (j : Fin 64) :
    Host.gather gather_S100000x64_S1700000x1_S1700000x64_1_0_n_n_0_1_164 t idx (ix2 e j)
      = t (ix2 (rowOf 100000 Cert.Gcn.nodes_pos (idx (ix2 e (0 : Fin 1)))) j) :=
  gatherRows_apply Cert.Gcn.nodes_pos Facts₀.gather_S100000x64_S1700000x1_S1700000x64_1_0_n_n_0_1_164_wf t idx e j

/-- An accumulating scatter of rows of width 128: what was there plus the messages of the edges sent to the row. -/
theorem scatterRows128_at (t : S100000x128.Idx → EReal) (idx : IVec S1700000x1 32) (upd : S1700000x128.Idx → EReal)
    (r : Fin 100000) (k : Fin 128) :
    Host.scatterAdd (F := Ideal) (φ := .f32) scatter_S100000x128_S1700000x1_S1700000x128_1_0_0_1 t idx upd (ix2 r k)
      = t (ix2 r k) + ∑ e ∈ edgesInto idx r, upd (ix2 e k) :=
  scatterAddRows_apply (wf := Facts₀.scatter_S100000x128_S1700000x1_S1700000x128_1_0_0_1_wf) (idx := idx) (k := k) t upd r

/-- An accumulating scatter of rows of width 64. -/
theorem scatterRows64_at (t : S100000x64.Idx → EReal) (idx : IVec S1700000x1 32) (upd : S1700000x64.Idx → EReal)
    (r : Fin 100000) (j : Fin 64) :
    Host.scatterAdd (F := Ideal) (φ := .f32) scatter_S100000x64_S1700000x1_S1700000x64_1_0_0_1 t idx upd (ix2 r j)
      = t (ix2 r j) + ∑ e ∈ edgesInto idx r, upd (ix2 e j) :=
  scatterAddRows_apply (wf := Facts₀.scatter_S100000x64_S1700000x1_S1700000x64_1_0_0_1_wf) (idx := idx) (k := j) t upd r

section
variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-! ### The normalisation of an edge -/

/-- The normalisation gathered at the sources. -/
theorem v24_at (e : Fin 1700000) :
    val_main_v24 (F := Ideal) x1 (ix1 e)
      = val_main_v17 (F := Ideal) x1 (ix1 (Cert.Gcn.src (val_main_v23 (F := Ideal) x1) e)) := by
  unfold val_main_v24
  exact gatherFlat_at _ _ e

/-- The normalisation gathered at the wrapped destinations. -/
theorem v31_at (e : Fin 1700000) :
    val_main_v31 (F := Ideal) x1 (ix1 e)
      = val_main_v17 (F := Ideal) x1 (ix1 (Cert.Gcn.dstRow (val_main_v30 (F := Ideal) x1) e)) := by
  unfold val_main_v31
  exact gatherFlat_at _ _ e

/-- Their product is the edge's weight. -/
theorem v32_at (e : Fin 1700000) :
    val_main_v32 (F := Ideal) x1 (ix1 e)
      = Cert.Gcn.nrm (val_main_v23 (F := Ideal) x1) (val_main_v30 (F := Ideal) x1) (val_main_v17 (F := Ideal) x1) e := by
  refine (val_main_v32_apply x1 (ix1 e)).trans ?_
  show val_main_v24 (F := Ideal) x1 (ix1 e) * val_main_v31 (F := Ideal) x1 (ix1 e) = _
  rw [v24_at, v31_at]
  rfl

/-- The weight broadcast along a row of width 128. -/
theorem v41_at (e : Fin 1700000) (k : Fin 128) :
    val_main_v41 (F := Ideal) x1 (ix2 e k)
      = Cert.Gcn.nrm (val_main_v23 (F := Ideal) x1) (val_main_v30 (F := Ideal) x1) (val_main_v17 (F := Ideal) x1) e := by
  refine (val_main_v41_apply x1 (ix2 e k)).trans ?_
  refine (val_main_v40_apply x1 _).trans ?_
  have h : idx_main_v40 (idx_main_v41 (ix2 e k)) = ix1 e :=
    funext fun a => Fin.ext (by match a with | ⟨0, _⟩ => rfl)
  exact (congrArg (val_main_v32 (F := Ideal) x1) h).trans (v32_at x1 e)

/-! ### The first layer -/

/-- The first dense layer. -/
theorem v4_at (r : Fin 100000) (k : Fin 128) :
    val_main_v4 (F := Ideal) x0 x2 (ix2 r k) = Cert.Gcn.lin1 x0 x2 r k := by
  refine (val_main_v4_apply x0 x2 (ix2 r k)).trans ?_
  unfold Cert.Gcn.lin1
  refine Finset.sum_congr rfl fun l _ => ?_
  have hl : lidx_main_v4 (ix2 r k) l = ix2 r l :=
    funext fun a => Fin.ext (by match a with | ⟨0, _⟩ => rfl | ⟨1, _⟩ => rfl)
  have hr : ridx_main_v4 (ix2 r k) l = ix2 l k :=
    funext fun a => Fin.ext (by match a with | ⟨0, _⟩ => rfl | ⟨1, _⟩ => rfl)
  rw [hl, hr]

/-- Its rows gathered at the sources. -/
theorem v39_at (e : Fin 1700000) (k : Fin 128) :
    val_main_v39 (F := Ideal) x0 x1 x2 (ix2 e k)
      = Cert.Gcn.lin1 x0 x2 (Cert.Gcn.src (val_main_v23 (F := Ideal) x1) e) k := by
  unfold val_main_v39
  rw [v38_eq]
  refine (gatherRows128_at _ _ e k).trans ?_
  exact v4_at x0 x2 _ k

/-- The messages of the first layer. -/
theorem v42_at (e : Fin 1700000) (k : Fin 128) :
    val_main_v42 (F := Ideal) x0 x1 x2 (ix2 e k)
      = Cert.Gcn.lin1 x0 x2 (Cert.Gcn.src (val_main_v23 (F := Ideal) x1) e) k
        * Cert.Gcn.nrm (val_main_v23 (F := Ideal) x1) (val_main_v30 (F := Ideal) x1) (val_main_v17 (F := Ideal) x1) e := by
  refine (val_main_v42_apply x0 x1 x2 (ix2 e k)).trans ?_
  show val_main_v39 (F := Ideal) x0 x1 x2 (ix2 e k) * val_main_v41 (F := Ideal) x1 (ix2 e k) = _
  rw [v39_at, v41_at]

/-- What the first sum starts from. -/
theorem v43_at (r : Fin 100000) (k : Fin 128) : val_main_v43 (F := Ideal) (ix2 r k) = Cert.Gcn.zw :=
  (val_main_v43_apply (F := Ideal) (ix2 r k)).trans rfl

/-- The aggregate of the first layer. -/
theorem v45_at (r : Fin 100000) (k : Fin 128) :
    val_main_v45 (F := Ideal) x0 x1 x2 (ix2 r k)
      = Cert.Gcn.rAgg1 (val_main_v23 (F := Ideal) x1) (val_main_v44 (F := Ideal) x1) (val_main_v30 (F := Ideal) x1)
          (val_main_v17 (F := Ideal) x1) x0 x2 r k := by
  unfold val_main_v45
  refine (scatterRows128_at _ _ _ r k).trans ?_
  unfold Cert.Gcn.rAgg1
  exact congrArg₂ (· + ·) (v43_at r k) (Finset.sum_congr rfl fun e _ => v42_at x0 x1 x2 e k)

/-- The bias row of the first layer. -/
theorem v47_at (r : Fin 100000) (k : Fin 128) : val_main_v47 (F := Ideal) x3 (ix2 r k) = x3 (ix1 k) := by
  refine (val_main_v47_apply x3 (ix2 r k)).trans ?_
  refine (val_main_v46_apply x3 _).trans ?_
  exact congrArg x3 (funext fun a => Fin.ext (by match a with | ⟨0, _⟩ => rfl))

/-- What the rectifier compares with. -/
theorem call1_v0_at (r : Fin 100000) (k : Fin 128) : val_main_call1_v0 (F := Ideal) (ix2 r k) = Cert.Gcn.zw :=
  (val_main_call1_v0_apply (F := Ideal) (ix2 r k)).trans rfl

/-- The rectified first layer. -/
theorem v49_at (r : Fin 100000) (k : Fin 128) :
    val_main_v49 (F := Ideal) x0 x1 x2 x3 (ix2 r k)
      = Cert.Gcn.rAct1 (val_main_v23 (F := Ideal) x1) (val_main_v44 (F := Ideal) x1) (val_main_v30 (F := Ideal) x1)
          (val_main_v17 (F := Ideal) x1) x0 x2 x3 r k := by
  refine (val_main_v49_apply x0 x1 x2 x3 (ix2 r k)).trans ?_
  refine (Ideal.maximumf_def _ _).trans ?_
  unfold Cert.Gcn.rAct1
  refine congrArg₂ max ?_ (call1_v0_at r k)
  refine (val_main_v48_apply x0 x1 x2 x3 (ix2 r k)).trans ?_
  refine (Ideal.addf_def _ _).trans ?_
  exact congrArg₂ (· + ·) (v45_at x0 x1 x2 r k) (v47_at x3 r k)

/-- The second dense layer. -/
theorem v50_at (r : Fin 100000) (j : Fin 64) :
    val_main_v50 (F := Ideal) x0 x1 x2 x3 x4 (ix2 r j)
      = Cert.Gcn.rLin2 (val_main_v23 (F := Ideal) x1) (val_main_v44 (F := Ideal) x1) (val_main_v30 (F := Ideal) x1)
          (val_main_v17 (F := Ideal) x1) x0 x2 x3 x4 r j := by
  refine (val_main_v50_apply x0 x1 x2 x3 x4 (ix2 r j)).trans ?_
  unfold Cert.Gcn.rLin2
  refine Finset.sum_congr rfl fun k _ => ?_
  have hl : lidx_main_v50 (ix2 r j) k = ix2 r k :=
    funext fun a => Fin.ext (by match a with | ⟨0, _⟩ => rfl | ⟨1, _⟩ => rfl)
  have hr : ridx_main_v50 (ix2 r j) k = ix2 k j :=
    funext fun a => Fin.ext (by match a with | ⟨0, _⟩ => rfl | ⟨1, _⟩ => rfl)
  rw [hl, hr, v49_at]

/-! ### The second layer -/

/-- The normalisation gathered at the sources, once more. -/
theorem v70_at (e : Fin 1700000) :
    val_main_v70 (F := Ideal) x1 (ix1 e)
      = val_main_v17 (F := Ideal) x1 (ix1 (Cert.Gcn.src (val_main_v23 (F := Ideal) x1) e)) := by
  unfold val_main_v70
  rw [v63_eq, v69_eq]
  exact gatherFlat_at _ _ e

/-- The normalisation gathered at the wrapped destinations, once more. -/
theorem v77_at (e : Fin 1700000) :
    val_main_v77 (F := Ideal) x1 (ix1 e)
      = val_main_v17 (F := Ideal) x1 (ix1 (Cert.Gcn.dstRow (val_main_v30 (F := Ideal) x1) e)) := by
  unfold val_main_v77
  rw [v63_eq, v76_eq]
  exact gatherFlat_at _ _ e

/-- Their product is the edge's weight again. -/
theorem v78_at (e : Fin 1700000) :
    val_main_v78 (F := Ideal) x1 (ix1 e)
      = Cert.Gcn.nrm (val_main_v23 (F := Ideal) x1) (val_main_v30 (F := Ideal) x1) (val_main_v17 (F := Ideal) x1) e := by
  refine (val_main_v78_apply x1 (ix1 e)).trans ?_
  show val_main_v70 (F := Ideal) x1 (ix1 e) * val_main_v77 (F := Ideal) x1 (ix1 e) = _
  rw [v70_at, v77_at]
  rfl

/-- The weight broadcast along a row of width 64. -/
theorem v87_at (e : Fin 1700000) (j : Fin 64) :
    val_main_v87 (F := Ideal) x1 (ix2 e j)
      = Cert.Gcn.nrm (val_main_v23 (F := Ideal) x1) (val_main_v30 (F := Ideal) x1) (val_main_v17 (F := Ideal) x1) e := by
  refine (val_main_v87_apply x1 (ix2 e j)).trans ?_
  refine (val_main_v86_apply x1 _).trans ?_
  have h : idx_main_v86 (idx_main_v87 (ix2 e j)) = ix1 e :=
    funext fun a => Fin.ext (by match a with | ⟨0, _⟩ => rfl)
  exact (congrArg (val_main_v78 (F := Ideal) x1) h).trans (v78_at x1 e)

/-- The second dense layer's rows gathered at the sources. -/
theorem v85_at (e : Fin 1700000) (j : Fin 64) :
    val_main_v85 (F := Ideal) x0 x1 x2 x3 x4 (ix2 e j)
      = Cert.Gcn.rLin2 (val_main_v23 (F := Ideal) x1) (val_main_v44 (F := Ideal) x1) (val_main_v30 (F := Ideal) x1)
          (val_main_v17 (F := Ideal) x1) x0 x2 x3 x4 (Cert.Gcn.src (val_main_v23 (F := Ideal) x1) e) j := by
  unfold val_main_v85
  rw [v84_eq]
  refine (gatherRows64_at _ _ e j).trans ?_
  exact v50_at x0 x1 x2 x3 x4 _ j

/-- The messages of the second layer. -/
theorem v88_at (e : Fin 1700000) (j : Fin 64) :
    val_main_v88 (F := Ideal) x0 x1 x2 x3 x4 (ix2 e j)
      = Cert.Gcn.rLin2 (val_main_v23 (F := Ideal) x1) (val_main_v44 (F := Ideal) x1) (val_main_v30 (F := Ideal) x1)
          (val_main_v17 (F := Ideal) x1) x0 x2 x3 x4 (Cert.Gcn.src (val_main_v23 (F := Ideal) x1) e) j
        * Cert.Gcn.nrm (val_main_v23 (F := Ideal) x1) (val_main_v30 (F := Ideal) x1) (val_main_v17 (F := Ideal) x1) e := by
  refine (val_main_v88_apply x0 x1 x2 x3 x4 (ix2 e j)).trans ?_
  show val_main_v85 (F := Ideal) x0 x1 x2 x3 x4 (ix2 e j) * val_main_v87 (F := Ideal) x1 (ix2 e j) = _
  rw [v85_at, v87_at]

/-- What the second sum starts from. -/
theorem v89_at (r : Fin 100000) (j : Fin 64) : val_main_v89 (F := Ideal) (ix2 r j) = Cert.Gcn.zw :=
  (val_main_v89_apply (F := Ideal) (ix2 r j)).trans rfl

/-- The aggregate of the second layer. -/
theorem v91_at (r : Fin 100000) (j : Fin 64) :
    val_main_v91 (F := Ideal) x0 x1 x2 x3 x4 (ix2 r j)
      = Cert.Gcn.rAgg2 (val_main_v23 (F := Ideal) x1) (val_main_v44 (F := Ideal) x1) (val_main_v30 (F := Ideal) x1)
          (val_main_v17 (F := Ideal) x1) x0 x2 x3 x4 r j := by
  unfold val_main_v91
  rw [v90_eq]
  refine (scatterRows64_at _ _ _ r j).trans ?_
  unfold Cert.Gcn.rAgg2
  exact congrArg₂ (· + ·) (v89_at r j) (Finset.sum_congr rfl fun e _ => v88_at x0 x1 x2 x3 x4 e j)

/-- The bias row of the second layer. -/
theorem v93_at (r : Fin 100000) (j : Fin 64) : val_main_v93 (F := Ideal) x5 (ix2 r j) = x5 (ix1 j) := by
  refine (val_main_v93_apply x5 (ix2 r j)).trans ?_
  refine (val_main_v92_apply x5 _).trans ?_
  exact congrArg x5 (funext fun a => Fin.ext (by match a with | ⟨0, _⟩ => rfl))

end

/-- THE REFERENCE'S RESULT, read at row `r` and column `j`: the writing that multiplies every message by the product of the
    normalisations at its two ends, over the four columns of the edge array the reference computes. -/
theorem ref_value (x0 : (⟨S100000x64, .f32⟩ : BufTy).Contents (Elt Ideal)) (x1 : (⟨S2x1600000, .i32⟩ : BufTy).Contents (Elt Ideal))
    (x2 : (⟨S64x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (r : Fin 100000) (j : Fin 64) :
    val_main_v94 (F := Ideal) x0 x1 x2 x3 x4 x5 (ix2 r j)
      = Cert.Gcn.rOut (val_main_v23 (F := Ideal) x1) (val_main_v44 (F := Ideal) x1) (val_main_v30 (F := Ideal) x1)
          (val_main_v17 (F := Ideal) x1) x0 x2 x3 x4 x5 r j := by
  refine (val_main_v94_apply x0 x1 x2 x3 x4 x5 (ix2 r j)).trans ?_
  refine (Ideal.addf_def _ _).trans ?_
  unfold Cert.Gcn.rOut
  exact congrArg₂ (· + ·) (v91_at x0 x1 x2 x3 x4 r j) (v93_at x5 r j)

end Cert.Gcn.Ref

end
-- ==== Proof.LibScaledSums.lean ====
/-
  Scaled sums on the extended reals, and the f32 words of this computation as extended reals.

  On EReal the product does not distribute over the sum in general (⊤ + ⊥ = ⊥ breaks it), but a NONNEGATIVE REAL
  constant does distribute: c · (a + b) = c · a + c · b for every a, b (Mathlib's `EReal.left_distrib_of_nonneg_of_ne_top`).
  By induction on the index set the same holds for every finite sum, with no finiteness asked of the terms.
-/
import Mathlib
import Idealize.ShloMosaic.PureOps.Ideal

noncomputable section

namespace ScaledSums

open Idealize.ShloMosaic

/-- A nonnegative real constant distributes over the sum of two extended reals, whatever they are. -/
theorem coe_mul_add_of_nonneg {c : ℝ} (hc : 0 ≤ c) (a b : EReal) :
    (c : EReal) * (a + b) = (c : EReal) * a + (c : EReal) * b :=
  EReal.left_distrib_of_nonneg_of_ne_top (EReal.coe_nonneg.mpr hc) (EReal.coe_ne_top c) a b

/-- A nonnegative real constant distributes over a finite sum of extended reals: c · Σ_{k∈s} f k = Σ_{k∈s} c · f k. -/
theorem coe_mul_sum_of_nonneg {ι : Type*} {c : ℝ} (hc : 0 ≤ c) (s : Finset ι) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, coe_mul_add_of_nonneg hc, ih]

/-- The same over a whole finite index type: c · Σ_k f k = Σ_k c · f k. -/
theorem coe_mul_sum_univ_of_nonneg {ι : Type*} [Fintype ι] {c : ℝ} (hc : 0 ≤ c) (f : ι → EReal) :
    (c : EReal) * ∑ k, f k = ∑ k, (c : EReal) * f k :=
  coe_mul_sum_of_nonneg hc Finset.univ f

/-- The constant on the right: (Σ_{k∈s} f k) · c = Σ_{k∈s} f k · c. -/
theorem sum_mul_coe_of_nonneg {ι : Type*} {c : ℝ} (hc : 0 ≤ c) (s : Finset ι) (f : ι → EReal) :
    (∑ k ∈ s, f k) * (c : EReal) = ∑ k ∈ s, f k * (c : EReal) := by
  rw [mul_comm, coe_mul_sum_of_nonneg hc]
  exact Finset.sum_congr rfl fun k _ => mul_comm _ _

/-- The constant on the right, over a whole finite index type. -/
theorem sum_univ_mul_coe_of_nonneg {ι : Type*} [Fintype ι] {c : ℝ} (hc : 0 ≤ c) (f : ι → EReal) :
    (∑ k, f k) * (c : EReal) = ∑ k, f k * (c : EReal) :=
  sum_mul_coe_of_nonneg hc Finset.univ f

/-! ## The f32 words as extended reals -/

/-- The word 0x00000000 denotes 0. -/
theorem ofBits_f32_zero : Ideal.ofBits .f32 0x00000000#32 = 0 := by
  simp [Ideal.ofBits, Ideal.ieee]

/-- The word 0x3F800000 denotes 1. -/
theorem ofBits_f32_one : Ideal.ofBits .f32 0x3F800000#32 = ((1 : ℝ) : EReal) := by
  simp [Ideal.ofBits, Ideal.ieee, -EReal.coe_mul]; norm_num

/-- The word 0x40000000 denotes 2. -/
theorem ofBits_f32_two : Ideal.ofBits .f32 0x40000000#32 = ((2 : ℝ) : EReal) := by
  simp [Ideal.ofBits, Ideal.ieee, -EReal.coe_mul]; norm_num

/-- The word 0x45000000 denotes 2048 = 2¹¹. -/
theorem ofBits_f32_2048 : Ideal.ofBits .f32 0x45000000#32 = ((2048 : ℝ) : EReal) := by
  simp [Ideal.ofBits, Ideal.ieee, -EReal.coe_mul]; norm_num

/-- The word 0x49000000 denotes 524288 = 2¹⁹. -/
theorem ofBits_f32_524288 : Ideal.ofBits .f32 0x49000000#32 = ((524288 : ℝ) : EReal) := by
  simp [Ideal.ofBits, Ideal.ieee, -EReal.coe_mul]; norm_num

/-- The word 0x36800000 denotes 2⁻¹⁸ = 1/262144. -/
theorem ofBits_f32_inv_262144 : Ideal.ofBits .f32 0x36800000#32 = ((1 / 262144 : ℝ) : EReal) := by
  simp [Ideal.ofBits, Ideal.ieee, -EReal.coe_mul]; norm_num

end ScaledSums

end
-- ==== Proof.SpecLaw.lean ====
/-
  The two writings of the two-layer graph convolution agree.

  The normalisation `dis` takes nonnegative REAL values, and a nonnegative real constant distributes over every finite sum
  of extended reals. The sums start from the zero word, which is 0, so an aggregate is a plain finite sum, and

      (Σ_{e → r} t_e · dis (src e)) · dis r  =  Σ_{e → r} t_e · (dis (src e) · dis (dst e)),

  because the product is associative and an edge sent to row r has dst e = r. Applied to the first layer this gives equal
  activations; applied to the second it gives the claim.

  Last, the shape of the normalisation: the reciprocal square root of a maximum with 1 is a nonnegative real, and so is the
  choice between it and the zero word.
-/
import proofs.«170777_j82566451298883_2_alg».proof.Proof.Spec
import proofs.«170777_j82566451298883_2_alg».proof.Proof.LibScaledSums

noncomputable section

namespace Cert.Gcn

open Idealize.ShloMosaic Idealize.ShloMosaic.ValueIdx Cert.Lib.Rows

/-- The zero word is 0. -/
theorem zw_eq : zw = 0 := ScaledSums.ofBits_f32_zero

section
variable (sN dR dN : IVec ⟨2, ![1700000, 1]⟩ 32) (dis : (⟨1, ![100000]⟩ : Shape).Idx → EReal)
  (x0 : (⟨2, ![100000, 64]⟩ : Shape).Idx → EReal) (x2 : (⟨2, ![64, 128]⟩ : Shape).Idx → EReal)
  (x3 : (⟨1, ![128]⟩ : Shape).Idx → EReal) (x4 : (⟨2, ![128, 64]⟩ : Shape).Idx → EReal)
  (x5 : (⟨1, ![64]⟩ : Shape).Idx → EReal)
  (hdis : ∀ r : Fin 100000, ∃ c : ℝ, 0 ≤ c ∧ dis (ix1 r) = (c : EReal))
  (hdst : ∀ (r : Fin 100000) (e : Fin 1700000), e ∈ edgesInto dR r → dstRow dN e = r)
include hdis hdst

/-- Scaling the aggregate at the destination is scaling every message by the destination-side factor:
    (0 + Σ_{e → r} t_e · dis (src e)) · dis r = 0 + Σ_{e → r} t_e · (dis (src e) · dis (dst e)), whatever the terms t_e. -/
theorem agg_mul (r : Fin 100000) (t : Fin 1700000 → EReal) :
    (zw + ∑ e ∈ edgesInto dR r, t e * dis (ix1 (src sN e))) * dis (ix1 r)
      = zw + ∑ e ∈ edgesInto dR r, t e * nrm sN dN dis e := by
  obtain ⟨c, hc, hcr⟩ := hdis r
  rw [zw_eq, zero_add, zero_add, hcr, ScaledSums.sum_mul_coe_of_nonneg hc]
  refine Finset.sum_congr rfl fun e he => ?_
  rw [nrm, hdst r e he, hcr, mul_assoc]

/-- First layer: the aggregate of the source-scaled features, scaled at the destination, is the aggregate of the
    normalised messages. -/
theorem kAgg1_mul (r : Fin 100000) (k : Fin 128) :
    kAgg1 sN dR dis x0 x2 r k * dis (ix1 r) = rAgg1 sN dR dN dis x0 x2 r k :=
  agg_mul sN dR dN dis hdis hdst r fun e => lin1 x0 x2 (src sN e) k

/-- The first activations agree. -/
theorem kAct1_eq (r : Fin 100000) (k : Fin 128) :
    kAct1 sN dR dis x0 x2 x3 r k = rAct1 sN dR dN dis x0 x2 x3 r k := by
  rw [kAct1, rAct1, kAgg1_mul sN dR dN dis x0 x2 hdis hdst]

/-- The source-scaled second-layer features are the second dense layer times the normalisation of the row. -/
theorem kH2_eq (r : Fin 100000) (j : Fin 64) :
    kH2 sN dR dis x0 x2 x3 x4 r j = rLin2 sN dR dN dis x0 x2 x3 x4 r j * dis (ix1 r) := by
  rw [kH2, rLin2]
  refine congrArg (· * dis (ix1 r)) (Finset.sum_congr rfl fun k _ => ?_)
  rw [kAct1_eq sN dR dN dis x0 x2 x3 hdis hdst]

/-- Second layer: the same exchange of the destination-side factor with the sum. -/
theorem kAgg2_mul (r : Fin 100000) (j : Fin 64) :
    kAgg2 sN dR dis x0 x2 x3 x4 r j * dis (ix1 r) = rAgg2 sN dR dN dis x0 x2 x3 x4 r j := by
  rw [kAgg2, rAgg2]
  simp only [kH2_eq sN dR dN dis x0 x2 x3 x4 hdis hdst]
  exact agg_mul sN dR dN dis hdis hdst r fun e => rLin2 sN dR dN dis x0 x2 x3 x4 (src sN e) j

/-- The two writings of the result agree at every index. -/
theorem kOut_eq_rOut (r : Fin 100000) (j : Fin 64) :
    kOut sN dR dis x0 x2 x3 x4 x5 r j = rOut sN dR dN dis x0 x2 x3 x4 x5 r j := by
  rw [kOut, rOut, kAgg2_mul sN dR dN dis x0 x2 x3 x4 hdis hdst]

end

/-! ### The normalisation is a nonnegative real -/

/-- The reciprocal square root of max(y, 1) is a nonnegative real: max(y, 1) is ⊤, sent to 0, or a real m ≥ 1,
    sent to (√m)⁻¹. -/
theorem rsqrt_max_one_real (y : EReal) :
    ∃ c : ℝ, 0 ≤ c ∧ Ideal.rsqrt (max y (Ideal.ofBits .f32 0x3F800000#32)) = (c : EReal) := by
  rw [ScaledSums.ofBits_f32_one]
  have h1 : ((1 : ℝ) : EReal) ≤ max y ((1 : ℝ) : EReal) := le_max_right _ _
  generalize max y ((1 : ℝ) : EReal) = m at h1
  induction m using EReal.rec with
  | bot => exact absurd (le_bot_iff.mp h1) (EReal.coe_ne_bot 1)
  | top => exact ⟨0, le_rfl, by rw [Ideal.rsqrt_top, EReal.coe_zero]⟩
  | coe m =>
    have hm : (1 : ℝ) ≤ m := EReal.coe_le_coe_iff.mp h1
    refine ⟨(Real.sqrt m)⁻¹, inv_nonneg.mpr (Real.sqrt_nonneg m), ?_⟩
    rw [Ideal.rsqrt_coe, if_neg (by linarith), if_neg (by linarith)]

/-- The choice between that reciprocal square root and the zero word is a nonnegative real. -/
theorem select_real (b : BitVec 1) (y : EReal) :
    ∃ c : ℝ, 0 ≤ c ∧ Scalar.select b (Ideal.rsqrt (max y (Ideal.ofBits .f32 0x3F800000#32)))
      (Ideal.ofBits .f32 0x00000000#32) = (c : EReal) := by
  rcases BitVec.eq_zero_or_eq_one b with rfl | rfl
  · exact ⟨0, le_rfl, by rw [select_zero, ScaledSums.ofBits_f32_zero, EReal.coe_zero]⟩
  · rw [select_one]; exact rsqrt_max_one_real y

end Cert.Gcn

end
-- ==== Proof.Params.lean ====
/-
  The two hypotheses of the agreement of the two writings, for the terms the reference program computes.

  The normalisation is, at every node, the choice (by a comparison bit) between the reciprocal square root of
  max(degree, 1) and the zero word: a nonnegative real whatever the degree count is.

  The destination-side normalisation reads the row "number if number ≥ 0, else number + 100000", clamped into the table.
  For an edge that the sum sends to row r the number, read signed, is r itself: it is not negative, the choice leaves it
  alone, and the clamp of r is r.
-/
import proofs.«170777_j82566451298883_2_alg».proof.Proof.Spec
import proofs.«170777_j82566451298883_2_alg».proof.Proof.SpecLaw
import proofs.«170777_j82566451298883_2_alg».proof.Proof.LibRows
import proofs.«170777_j82566451298883_2_alg».proof.Proof.RefRead
import Idealize.ShloMosaic.PureOps.Ideal
import Idealize.ShloMosaic.Lib.ValueIdx

noncomputable section

namespace Cert.Gcn.Params

open Idealize.ShloMosaic Idealize.ShloMosaic.ValueIdx
open Cert.ReferenceIdeal Cert.ReferenceIdeal.Read Cert.Lib.Rows

/-- The normalisation the program computes is a nonnegative real at every node. -/
theorem dis_real (x1 : (⟨S2x1600000, .i32⟩ : BufTy).Contents (Elt Ideal)) (r : Fin 100000) :
    ∃ c : ℝ, 0 ≤ c ∧ val_main_v17 (F := Ideal) x1 (ix1 r) = (c : EReal) := by
  rw [val_main_v17_apply, val_main_v16_apply, val_main_v15_apply, val_main_v14_apply, val_main_cst_2_apply,
    val_main_call0_v1_apply, val_main_call0_v0_apply, val_main_cst_3_apply,
    Ideal.hostUnary_rsqrt_def, Ideal.maximumf_def, Ideal.ofBits_def, Ideal.ofBits_def]
  exact Cert.Gcn.select_real _ _

/-- The column of numbers, read at edge e, is the list of numbers read at e. -/
theorem idx_v44 (e : Fin 1700000) : idx_main_v44 (ix2 e (0 : Fin 1)) = ix1 e := by
  funext a; match a with | ⟨0, _⟩ => rfl

theorem idx_v30 (e : Fin 1700000) : idx_main_v30 (ix2 e (0 : Fin 1)) = ix1 e := by
  funext a; match a with | ⟨0, _⟩ => rfl

/-- For an edge the sum sends to row r, the row the destination-side normalisation reads is r. -/
theorem dst_row (x1 : (⟨S2x1600000, .i32⟩ : BufTy).Contents (Elt Ideal)) (r : Fin 100000) (e : Fin 1700000)
    (he : e ∈ edgesInto (val_main_v44 (F := Ideal) x1) r) :
    Cert.Gcn.dstRow (val_main_v30 (F := Ideal) x1) e = r := by
  have h := (mem_edgesInto _ r e).mp he
  rw [val_main_v44_apply, idx_v44] at h
  refine rowOf_of_toInt _ _ r ?_
  rw [val_main_v30_apply, idx_v30, val_main_v29_apply, val_main_v26_apply, val_main_v28_apply, val_main_v25_apply,
    val_main_c_5_apply, wrap_of_toInt _ _ r.val h]
  exact h

end Cert.Gcn.Params

end
-- ==== Proof.Assembly.lean ====
/-
  The two programs end with equal results: the statement assembled from its parts.

  The kernel program's run ends with its result buffer at the last boundary's contents, and the reference program's run
  ends with its result buffer at the composed term of its arguments. Read at row r and column j the reference's term is
  the writing that multiplies every message by the product of the normalisations at its two ends; the kernel's is the
  writing that scales at the source before the gather and at the destination after the sum (taken here as a hypothesis
  on the last boundary's contents). The two writings agree because the normalisation the program computes is a
  nonnegative real at every node and an edge sent to a row has that row as its destination.
-/
import proofs.«170777_j82566451298883_2_alg».proof.Defs
import proofs.«170777_j82566451298883_2_alg».proof.Proof.Gen.KernelIdeal.Frame
import proofs.«170777_j82566451298883_2_alg».proof.Proof.Gen.Pre_finite_inputs
import proofs.«170777_j82566451298883_2_alg».proof.Proof.KRun
import proofs.«170777_j82566451298883_2_alg».proof.Proof.RefRead
import proofs.«170777_j82566451298883_2_alg».proof.Proof.RefValue
import proofs.«170777_j82566451298883_2_alg».proof.Proof.Params
import proofs.«170777_j82566451298883_2_alg».proof.Proof.SpecLaw

noncomputable section

namespace Cert.Proof.Gcn

open Idealize.ShloMosaic Idealize.ShloMosaic.TcCoe Idealize.SL.Sem Idealize.ShloMosaic.ValueIdx

/-- The kernel program's result buffer at the last boundary is the source-and-destination-scaled writing of the launch
    memory's arguments, over the columns of the edge array that the reference computes. -/
def KernelValue : Prop :=
  ∀ (m : (ℓ : Loc Cert.KernelIdeal.nD Cert.KernelIdeal.τ Cert.KernelIdeal.sig) → Buf (Elt Ideal) ℓ)
    (ρ : Dev Cert.KernelIdeal.nD → PrngReg) (c : Dev Cert.KernelIdeal.nD),
  (Cert.KernelIdeal.Gen.W8 m ρ c (Proc.devRef .tc Cert.KernelIdeal.main_v42) : FVec Ideal Cert.KernelIdeal.S100000x64 .f32)
    = fun i => Cert.Gcn.kOut
        (Cert.ReferenceIdeal.Read.val_main_v23 (F := Ideal) (m ((c.tc : Thread Cert.KernelIdeal.nD Cert.KernelIdeal.τ).loc Cert.KernelIdeal.main_arg1)))
        (Cert.ReferenceIdeal.Read.val_main_v44 (F := Ideal) (m ((c.tc : Thread Cert.KernelIdeal.nD Cert.KernelIdeal.τ).loc Cert.KernelIdeal.main_arg1)))
        (Cert.ReferenceIdeal.Read.val_main_v17 (F := Ideal) (m ((c.tc : Thread Cert.KernelIdeal.nD Cert.KernelIdeal.τ).loc Cert.KernelIdeal.main_arg1)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (i 0) (i 1)

open Cert.ReferenceIdeal Cert.ReferenceIdeal.Read in
/-- The reference's composed term is the source-and-destination-scaled writing of its arguments: at every index it is the
    per-message writing, and the two writings agree. -/
theorem ref_eq_kOut (x0 : (⟨S100000x64, .f32⟩ : BufTy).Contents (Elt Ideal)) (x1 : (⟨S2x1600000, .i32⟩ : BufTy).Contents (Elt Ideal))
    (x2 : (⟨S64x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v94 (F := Ideal) x0 x1 x2 x3 x4 x5
      = fun i => Cert.Gcn.kOut (val_main_v23 (F := Ideal) x1) (val_main_v44 (F := Ideal) x1) (val_main_v17 (F := Ideal) x1)
          x0 x2 x3 x4 x5 (i 0) (i 1) := by
  funext i
  obtain ⟨r, j, rfl⟩ : ∃ (r : Fin 100000) (j : Fin 64), i = ix2 r j := ⟨i 0, i 1, eq_ix2 i⟩
  refine (Cert.Gcn.Ref.ref_value x0 x1 x2 x3 x4 x5 r j).trans ?_
  exact (Cert.Gcn.kOut_eq_rOut (val_main_v23 (F := Ideal) x1) (val_main_v44 (F := Ideal) x1) (val_main_v30 (F := Ideal) x1)
    (val_main_v17 (F := Ideal) x1) x0 x2 x3 x4 x5 (Cert.Gcn.Params.dis_real x1) (Cert.Gcn.Params.dst_row x1) r j).symm

/-- From memories agreeing on the arguments both programs run, end with equal results and leave the arguments unchanged. -/
theorem algebraic_of (hK : KernelValue) : Cert.algebraic_KernelIdeal_ReferenceIdeal := by
  intro m ρ m' ρ' _ hagree
  refine ⟨fun c => Cert.KernelIdeal.Gen.W8 m ρ c (Proc.devRef .tc Cert.KernelIdeal.main_v42),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  refine (Cert.ReferenceIdeal.Read.val_main_v94_eq m' c).trans ?_
  rw [h0, h1, h2, h3, h4, h5]
  exact (ref_eq_kOut _ _ _ _ _ _).trans (hK m ρ c).symm

/-- The reference program runs and leaves its arguments unchanged. -/
theorem frame_ref : Cert.frame_ReferenceIdeal := fun m ρ _ =>
  (θ_run Cert.ReferenceIdeal.defs _ _).mono (fun _ h c => (h c).2) (Cert.ReferenceIdeal.Value.run (F := Ideal) m ρ)

end Cert.Proof.Gcn

end
-- ==== Proof.lean ====
/-
  A two-layer graph convolution on 100000 nodes and 1700000 edges (the given ones and one self loop per node), computed
  twice: by three blocked kernels around host gathers and scatter-adds, and by a plain host program.

  With dis = deg^(-1/2) (zero at an isolated node), the kernel program scales a layer's features by dis at the SOURCE
  before they are gathered and scales the aggregate by dis at the DESTINATION after the sum:
      out = dis ⊙ Σ_{e → ·} (dis ⊙ relu (dis ⊙ Σ_{e → ·} (dis ⊙ x·W1)[src e] + b1) · W2)[src e] + b2,
  while the host program multiplies every message by dis[src e] · dis[dst e]. On the extended reals the two agree: dis takes
  nonnegative real values, a nonnegative real constant distributes over any finite sum (whatever the terms), the product
  is associative, and an edge that is added into row r has destination r; an edge whose destination is no row is dropped
  by both. The matrix products agree as finite sums, and a change of float format is the identity at the exact values.

  The three frame conjuncts are the generated frames (the host program's is its run with the result dropped); no
  operation was rewritten on the way to the idealized kernel program, so that conjunct is trivial; the last conjunct is
  assembled in Assembly.lean from the kernel program's value (KValue.lean: the run read backwards through the three
  launches and the host stretches between them) and the host program's (RefValue.lean), joined by SpecLaw.lean.
-/
import proofs.«170777_j82566451298883_2_alg».proof.Defs
import proofs.«170777_j82566451298883_2_alg».proof.Proof.Gen.Kernel
import proofs.«170777_j82566451298883_2_alg».proof.Proof.Gen.Kernel.Skeleton
import proofs.«170777_j82566451298883_2_alg».proof.Proof.Gen.Kernel.Launch
import proofs.«170777_j82566451298883_2_alg».proof.Proof.Gen.Kernel.Points
import proofs.«170777_j82566451298883_2_alg».proof.Proof.Gen.Kernel.Frame
import proofs.«170777_j82566451298883_2_alg».proof.Proof.Gen.KernelIdeal
import proofs.«170777_j82566451298883_2_alg».proof.Proof.Gen.KernelIdeal.Skeleton
import proofs.«170777_j82566451298883_2_alg».proof.Proof.Gen.KernelIdeal.Launch
import proofs.«170777_j82566451298883_2_alg».proof.Proof.Gen.KernelIdeal.Points
import proofs.«170777_j82566451298883_2_alg».proof.Proof.Gen.KernelIdeal.Frame
import proofs.«170777_j82566451298883_2_alg».proof.Proof.Gen.ReferenceIdeal
import proofs.«170777_j82566451298883_2_alg».proof.Proof.Gen.Pre_finite_inputs
import proofs.«170777_j82566451298883_2_alg».proof.Proof.KValue
import proofs.«170777_j82566451298883_2_alg».proof.Proof.Assembly
import Idealize.ShloMosaic.Adequacy
import Idealize.ShloMosaic.Init

noncomputable section

namespace Cert.Proof

open Idealize.ShloMosaic Idealize.SL.Sem

/-- The word-level kernel program runs and leaves its arguments unchanged: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The two idealized programs end with equal results: the kernel program's result is `kOut` of the arguments
    (`Cert.KernelIdeal.Hand.W8_v42`), the host program's is `rOut`, and the two writings agree. -/
theorem algebraic : Cert.algebraic_KernelIdeal_ReferenceIdeal :=
  Cert.Proof.Gcn.algebraic_of fun m ρ c => Cert.KernelIdeal.Hand.W8_v42 m ρ c

theorem claim : Cert.Claim := ⟨Cert.Kernel.Gen.facts, Cert.KernelIdeal.Gen.facts, Cert.ReferenceIdeal.Gen.facts, Cert.Pre_finite_inputs.Gen.facts,
  frame_kernel, frame_kernelIdeal, Cert.Proof.Gcn.frame_ref, trivial, algebraic⟩

end Cert.Proof

end
